-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x20063 : Shape := ⟨2, ![1, 20063]⟩
abbrev S2x1600000 : Shape := ⟨2, ![2, 1600000]⟩
abbrev S7x128 : Shape := ⟨2, ![7, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S1x20063 : S_.BroadcastsInDim S1x20063 (![] : Fin 0 → Fin S1x20063.rank)
  reducesTo_S1x20063_S_d0_1 : S1x20063.ReducesTo [0, 1] S_
  h_S_ : 0 < S_.numel
  bcast_S_S7x128 : S_.BroadcastsInDim S7x128 (![] : Fin 0 → Fin S7x128.rank)
  reducesTo_S7x128_S_d0_1 : S7x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S1x20063 .f32) (main_arg1 : IVec S2x1600000 32) (main_arg2 : FVec F S7x128 .f32) (main_arg3 : FVec F S128 .f32) (main_arg4 : FVec F S128x128 .f32) (main_arg5 : FVec F S128 .f32) (main_arg6 : FVec F S128x128 .f32) (main_arg7 : FVec F S128 .f32) (main_arg8 : FVec F S128x1 .f32) (main_arg9 : FVec F S1 .f32) : IVec S_ 1 :=
  let main_v0 : FVec F S1x20063 .f32 := Host.absf main_arg0
  let main_cst : FVec F S_ .f32 := constant S_ .f32 0x7F800000#32
  let main_v1 : FVec F S1x20063 .f32 := broadcastInDim S1x20063 ![] bcast_S_S1x20063 main_cst
  let main_v2 : IVec S1x20063 1 := cmpf .olt main_v0 main_v1
  let main_c : IVec S_ 1 := constantI S_ 1 1#1
  let main_v3 : IVec S_ 1 := (fun x v => Host.reduce IntOp.andi x v reducesTo_S1x20063_S_d0_1 h_S_) main_v2 main_c
  let main_v4 : FVec F S7x128 .f32 := Host.absf main_arg2
  let main_cst_0 : FVec F S_ .f32 := constant S_ .f32 0x7F800000#32
  let main_v5 : FVec F S7x128 .f32 := broadcastInDim S7x128 ![] bcast_S_S7x128 main_cst_0
  let main_v6 : IVec S7x128 1 := cmpf .olt main_v4 main_v5
  let main_c_1 : IVec S_ 1 := constantI S_ 1 1#1
  let main_v7 : IVec S_ 1 := (fun x v => Host.reduce IntOp.andi x v reducesTo_S7x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S1x20063 : Shape := ⟨2, ![1, 20063]⟩
abbrev S2x1600000 : Shape := ⟨2, ![2, 1600000]⟩
abbrev S7x128 : Shape := ⟨2, ![7, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x20000 : Shape := ⟨2, ![1, 20000]⟩
abbrev S1x5000x4 : Shape := ⟨3, ![1, 5000, 4]⟩
abbrev S1x60 : Shape := ⟨2, ![1, 60]⟩
abbrev S1x20x3 : Shape := ⟨3, ![1, 20, 3]⟩
abbrev S1x5000x1x4 : Shape := ⟨4, ![1, 5000, 1, 4]⟩
abbrev S1x5000x20x4 : Shape := ⟨4, ![1, 5000, 20, 4]⟩
abbrev S1x1x20x3 : Shape := ⟨4, ![1, 1, 20, 3]⟩
abbrev S1x5000x20x3 : Shape := ⟨4, ![1, 5000, 20, 3]⟩
abbrev S1x5000x20x7 : Shape := ⟨4, ![1, 5000, 20, 7]⟩
abbrev S100000x7 : Shape := ⟨2, ![100000, 7]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x7 : Shape := ⟨2, ![10000, 7]⟩
abbrev S10000x128 : Shape := ⟨2, ![10000, 128]⟩
abbrev S1700000x128 : Shape := ⟨2, ![1700000, 128]⟩
abbrev S1x128 : Shape := ⟨2, ![1, 128]⟩
abbrev S1x1 : Shape := ⟨2, ![1, 1]⟩
abbrev S100000x1 : Shape := ⟨2, ![100000, 1]⟩
abbrev S10000x1 : Shape := ⟨2, ![10000, 1]⟩
abbrev S1x100000 : Shape := ⟨2, ![1, 100000]⟩

abbrev nBuf : Space → Nat
  | .hbm => 100
  | .vmem => 20
  | .smem => 0
  | _ => 0

abbrev bufTy : (tb : Table) → Fin (tcTables nBuf tb) → BufTy
  | .hbm, ⟨0, _⟩ => ⟨S1x20063, .f32⟩
  | .hbm, ⟨1, _⟩ => ⟨S2x1600000, .i32⟩
  | .hbm, ⟨2, _⟩ => ⟨S7x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x20000, .f32⟩
  | .hbm, ⟨11, _⟩ => ⟨S1x5000x4, .f32⟩
  | .hbm, ⟨12, _⟩ => ⟨S1x60, .f32⟩
  | .hbm, ⟨13, _⟩ => ⟨S1x20x3, .f32⟩
  | .hbm, ⟨14, _⟩ => ⟨S1x5000x1x4, .f32⟩
  | .hbm, ⟨15, _⟩ => ⟨S1x5000x20x4, .f32⟩
  | .hbm, ⟨16, _⟩ => ⟨S1x1x20x3, .f32⟩
  | .hbm, ⟨17, _⟩ => ⟨S1x5000x20x3, .f32⟩
  | .hbm, ⟨18, _⟩ => ⟨S1x5000x20x7, .f32⟩
  | .hbm, ⟨19, _⟩ => ⟨S100000x7, .f32⟩
  | .hbm, ⟨20, _⟩ => ⟨S100000, .i32⟩
  | .hbm, ⟨21, _⟩ => ⟨S1x1600000, .i32⟩
  | .hbm, ⟨22, _⟩ => ⟨S1600000, .i32⟩
  | .hbm, ⟨23, _⟩ => ⟨S1700000, .i32⟩
  | .hbm, ⟨24, _⟩ => ⟨S1x1600000, .i32⟩
  | .hbm, ⟨25, _⟩ => ⟨S1600000, .i32⟩
  | .hbm, ⟨26, _⟩ => ⟨S1700000, .i32⟩
  | .hbm, ⟨27, _⟩ => ⟨S_, .f32⟩
  | .hbm, ⟨28, _⟩ => ⟨S1700000, .f32⟩
  | .hbm, ⟨29, _⟩ => ⟨S_, .f32⟩
  | .hbm, ⟨30, _⟩ => ⟨S100000, .f32⟩
  | .hbm, ⟨31, _⟩ => ⟨S1700000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S100000x128, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .f32⟩
  | .hbm, ⟨70, _⟩ => ⟨S1700000x1, .f32⟩
  | .hbm, ⟨71, _⟩ => ⟨S1700000x128, .f32⟩
  | .hbm, ⟨72, _⟩ => ⟨S1700000x128, .f32⟩
  | .hbm, ⟨73, _⟩ => ⟨S_, .f32⟩
  | .hbm, ⟨74, _⟩ => ⟨S100000x128, .f32⟩
  | .hbm, ⟨75, _⟩ => ⟨S1700000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x128, .f32⟩
  | .hbm, ⟨88, _⟩ => ⟨S1700000x1, .f32⟩
  | .hbm, ⟨89, _⟩ => ⟨S1700000x128, .f32⟩
  | .hbm, ⟨90, _⟩ => ⟨S1700000x128, .f32⟩
  | .hbm, ⟨91, _⟩ => ⟨S_, .f32⟩
  | .hbm, ⟨92, _⟩ => ⟨S100000x128, .f32⟩
  | .hbm, ⟨93, _⟩ => ⟨S1700000x1, .i32⟩
  | .hbm, ⟨94, _⟩ => ⟨S100000x128, .f32⟩
  | .hbm, ⟨95, _⟩ => ⟨S1x128, .f32⟩
  | .hbm, ⟨96, _⟩ => ⟨S1x128, .f32⟩
  | .hbm, ⟨97, _⟩ => ⟨S1x1, .f32⟩
  | .hbm, ⟨98, _⟩ => ⟨S100000x1, .f32⟩
  | .hbm, ⟨99, _⟩ => ⟨S1x100000, .f32⟩
  | .local _ .vmem, ⟨0, _⟩ => ⟨S10000x7, .f32⟩
  | .local _ .vmem, ⟨1, _⟩ => ⟨S10000x7, .f32⟩
  | .local _ .vmem, ⟨2, _⟩ => ⟨S7x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S1x20063, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_9 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S1x20063_S1x20000_0_3 : S1x20063.Slices ![0, 3] S1x20000
  shapeCasts_S1x20000_S1x5000x4 : S1x20000.ShapeCasts S1x5000x4
  slices_S1x20063_S1x60_0_20003 : S1x20063.Slices ![0, 20003] S1x60
  shapeCasts_S1x60_S1x20x3 : S1x60.ShapeCasts S1x20x3
  bcast_S1x5000x4_S1x5000x1x4_0_1_3 : S1x5000x4.BroadcastsInDim S1x5000x1x4 (![0, 1, 3] : Fin 3 → Fin S1x5000x1x4.rank)
  bcast_S1x5000x1x4_S1x5000x20x4_0_1_2_3 : S1x5000x1x4.BroadcastsInDim S1x5000x20x4 (![0, 1, 2, 3] : Fin 4 → Fin S1x5000x20x4.rank)
  bcast_S1x20x3_S1x1x20x3_0_2_3 : S1x20x3.BroadcastsInDim S1x1x20x3 (![0, 2, 3] : Fin 3 → Fin S1x1x20x3.rank)
  bcast_S1x1x20x3_S1x5000x20x3_0_1_2_3 : S1x1x20x3.BroadcastsInDim S1x5000x20x3 (![0, 1, 2, 3] : Fin 4 → Fin S1x5000x20x3.rank)
  concatenates_S1x5000x20x4_S1x5000x20x3_S1x5000x20x7_d3 : Shape.Concatenates [S1x5000x20x4, S1x5000x20x3] S1x5000x20x7 3
  shapeCasts_S1x5000x20x7_S100000x7 : S1x5000x20x7.ShapeCasts S100000x7
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  inb_S7x128_S7x128_0_0 : ∀ a, (![0, 0] : Fin 2 → Nat) a + S7x128.size a ≤ S7x128.size a
  h_S7x128 : 0 < S7x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S1x100000 : S100000x1.ShapeCasts S1x100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x7_S7x128_S10000x128_1_0_0_1_n_n_wf : DotDims.WF S10000x7 S7x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x7.size a ≤ S100000x7.size a
  hwx0_0 : ∀ i : grid0.Coords, EltTy.bits .f32 = 32 ∨ (Rect.block (s := S100000x7) S10000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x128.size a ≤ S7x128.size a
  hwx0_1 : ∀ i : grid0.Coords, EltTy.bits .f32 = 32 ∨ (Rect.block (s := S7x128) S7x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x1.size a ≤ S100000x1.size a
  hwx2_6 : ∀ i : grid2.Coords, EltTy.bits .f32 = 32 ∨ (Rect.block (s := S100000x1) S10000x1.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x7_S7x128_S10000x128_1_0_0_1_n_n : DotDims S10000x7 S7x128 S10000x128 where
  lhsContracting := [1]
  rhsContracting := [0]
  lhsNonContracting := [0]
  rhsNonContracting := [1]
  lhsBatch := []
  rhsBatch := []
  wf := dot_S10000x7_S7x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v9) S10000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S7x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v68) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S10000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S1x20063 : Shape := ⟨2, ![1, 20063]⟩
abbrev S2x1600000 : Shape := ⟨2, ![2, 1600000]⟩
abbrev S7x128 : Shape := ⟨2, ![7, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x20000 : Shape := ⟨2, ![1, 20000]⟩
abbrev S1x5000x4 : Shape := ⟨3, ![1, 5000, 4]⟩
abbrev S1x60 : Shape := ⟨2, ![1, 60]⟩
abbrev S1x20x3 : Shape := ⟨3, ![1, 20, 3]⟩
abbrev S1x5000x1x4 : Shape := ⟨4, ![1, 5000, 1, 4]⟩
abbrev S1x5000x20x4 : Shape := ⟨4, ![1, 5000, 20, 4]⟩
abbrev S1x1x20x3 : Shape := ⟨4, ![1, 1, 20, 3]⟩
abbrev S1x5000x20x3 : Shape := ⟨4, ![1, 5000, 20, 3]⟩
abbrev S1x5000x20x7 : Shape := ⟨4, ![1, 5000, 20, 7]⟩
abbrev S100000x7 : Shape := ⟨2, ![100000, 7]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩
abbrev S1x100000 : Shape := ⟨2, ![1, 100000]⟩

abbrev nBuf : Space → Nat
  | .hbm => 118
  | .vmem => 0
  | .smem => 0
  | _ => 0

abbrev bufTy : (tb : Table) → Fin (tcTables nBuf tb) → BufTy
  | .hbm, ⟨0, _⟩ => ⟨S1x20063, .f32⟩
  | .hbm, ⟨1, _⟩ => ⟨S2x1600000, .i32⟩
  | .hbm, ⟨2, _⟩ => ⟨S7x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x20000, .f32⟩
  | .hbm, ⟨11, _⟩ => ⟨S1x5000x4, .f32⟩
  | .hbm, ⟨12, _⟩ => ⟨S1x60, .f32⟩
  | .hbm, ⟨13, _⟩ => ⟨S1x20x3, .f32⟩
  | .hbm, ⟨14, _⟩ => ⟨S1x5000x1x4, .f32⟩
  | .hbm, ⟨15, _⟩ => ⟨S1x5000x20x4, .f32⟩
  | .hbm, ⟨16, _⟩ => ⟨S1x1x20x3, .f32⟩
  | .hbm, ⟨17, _⟩ => ⟨S1x5000x20x3, .f32⟩
  | .hbm, ⟨18, _⟩ => ⟨S1x5000x20x7, .f32⟩
  | .hbm, ⟨19, _⟩ => ⟨S100000x7, .f32⟩
  | .hbm, ⟨20, _⟩ => ⟨S100000, .i32⟩
  | .hbm, ⟨21, _⟩ => ⟨S1x1600000, .i32⟩
  | .hbm, ⟨22, _⟩ => ⟨S1600000, .i32⟩
  | .hbm, ⟨23, _⟩ => ⟨S1700000, .i32⟩
  | .hbm, ⟨24, _⟩ => ⟨S1x1600000, .i32⟩
  | .hbm, ⟨25, _⟩ => ⟨S1600000, .i32⟩
  | .hbm, ⟨26, _⟩ => ⟨S1700000, .i32⟩
  | .hbm, ⟨27, _⟩ => ⟨S_, .f32⟩
  | .hbm, ⟨28, _⟩ => ⟨S1700000, .f32⟩
  | .hbm, ⟨29, _⟩ => ⟨S_, .f32⟩
  | .hbm, ⟨30, _⟩ => ⟨S100000, .f32⟩
  | .hbm, ⟨31, _⟩ => ⟨S1700000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S100000x128, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .f32⟩
  | .hbm, ⟨70, _⟩ => ⟨S1700000x1, .f32⟩
  | .hbm, ⟨71, _⟩ => ⟨S1700000x128, .f32⟩
  | .hbm, ⟨72, _⟩ => ⟨S1700000x128, .f32⟩
  | .hbm, ⟨73, _⟩ => ⟨S_, .f32⟩
  | .hbm, ⟨74, _⟩ => ⟨S100000x128, .f32⟩
  | .hbm, ⟨75, _⟩ => ⟨S1700000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x128, .f32⟩
  | .hbm, ⟨93, _⟩ => ⟨S1700000x1, .f32⟩
  | .hbm, ⟨94, _⟩ => ⟨S1700000x128, .f32⟩
  | .hbm, ⟨95, _⟩ => ⟨S1700000x128, .f32⟩
  | .hbm, ⟨96, _⟩ => ⟨S_, .f32⟩
  | .hbm, ⟨97, _⟩ => ⟨S100000x128, .f32⟩
  | .hbm, ⟨98, _⟩ => ⟨S1700000x1, .i32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S_, .f32⟩
  | .hbm, ⟨111, _⟩ => ⟨S100000x128, .f32⟩
  | .hbm, ⟨112, _⟩ => ⟨S100000x128, .f32⟩
  | .hbm, ⟨113, _⟩ => ⟨S100000x1, .f32⟩
  | .hbm, ⟨114, _⟩ => ⟨S1x1, .f32⟩
  | .hbm, ⟨115, _⟩ => ⟨S100000x1, .f32⟩
  | .hbm, ⟨116, _⟩ => ⟨S100000x1, .f32⟩
  | .hbm, ⟨117, _⟩ => ⟨S1x100000, .f32⟩
  | _, _ => ⟨S1x20063, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_c_9 : Ref sig .tc := ⟨.hbm, 84, rfl⟩
abbrev main_v59 : Ref sig .tc := ⟨.hbm, 85, rfl⟩
abbrev main_v60 : Ref sig .tc := ⟨.hbm, 86, rfl⟩
abbrev main_c_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call2_cst : Ref sig .tc := ⟨.hbm, 103, rfl⟩
abbrev main_call2_v0 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call3_cst : Ref sig .tc := ⟨.hbm, 110, rfl⟩
abbrev main_call3_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  slices_S1x20063_S1x20000_0_3 : S1x20063.Slices ![0, 3] S1x20000
  shapeCasts_S1x20000_S1x5000x4 : S1x20000.ShapeCasts S1x5000x4
  slices_S1x20063_S1x60_0_20003 : S1x20063.Slices ![0, 20003] S1x60
  shapeCasts_S1x60_S1x20x3 : S1x60.ShapeCasts S1x20x3
  bcast_S1x5000x4_S1x5000x1x4_0_1_3 : S1x5000x4.BroadcastsInDim S1x5000x1x4 (![0, 1, 3] : Fin 3 → Fin S1x5000x1x4.rank)
  bcast_S1x5000x1x4_S1x5000x20x4_0_1_2_3 : S1x5000x1x4.BroadcastsInDim S1x5000x20x4 (![0, 1, 2, 3] : Fin 4 → Fin S1x5000x20x4.rank)
  bcast_S1x20x3_S1x1x20x3_0_2_3 : S1x20x3.BroadcastsInDim S1x1x20x3 (![0, 2, 3] : Fin 3 → Fin S1x1x20x3.rank)
  bcast_S1x1x20x3_S1x5000x20x3_0_1_2_3 : S1x1x20x3.BroadcastsInDim S1x5000x20x3 (![0, 1, 2, 3] : Fin 4 → Fin S1x5000x20x3.rank)
  concatenates_S1x5000x20x4_S1x5000x20x3_S1x5000x20x7_d3 : Shape.Concatenates [S1x5000x20x4, S1x5000x20x3] S1x5000x20x7 3
  shapeCasts_S1x5000x20x7_S100000x7 : S1x5000x20x7.ShapeCasts S100000x7
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S1x100000 : S100000x1.ShapeCasts S1x100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x7_S7x128_S100000x128_1_0_0_1_n_n_wf : DotDims.WF S100000x7 S7x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x7_S7x128_S100000x128_1_0_0_1_n_n : DotDims S100000x7 S7x128 S100000x128 where
  lhsContracting := [1]
  rhsContracting := [0]
  lhsNonContracting := [0]
  rhsNonContracting := [1]
  lhsBatch := []
  rhsBatch := []
  wf := dot_S100000x7_S7x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The kernel program's run, with the buffer it returns named.

  The generated frame certificate shows that every weakly fair execution of the kernel program on the TensorCores
  terminates without a fault and leaves the ten argument arrays as launched.  Its final thread state says more than
  that: every unscoped buffer of a core ends at the last boundary of the fold `Gen.W9` (the launch memory pushed
  through the four stretches of host operations and the three regions).  This module reads that final state at one
  more buffer, the program's result `main_v73`, so that the value returned is available as a term of the fold.
-/
import proofs.«168326_j28561532518999_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch rule's implicit arguments are found by unifying its conclusion with this one, which takes unfolding
-- plain definitions in a metavariable's type
set_option backward.isDefEq.respectTransparency.types false in
/-- From any launch memory `m` with zero counters, at any float semantics `F`: every weakly fair execution of the
    kernel program on the TensorCores terminates, nothing faulting, and in every final state each core's result
    buffer `main_v73` holds the fold's last boundary `Gen.W9 m ρ c` read at that buffer, while each of the ten
    argument arrays holds what it held at launch.  The result is thereby named by a term over the launch state
    `m`, `ρ` and the core `c`: the host operations and the three regions' write-backs composed in program order. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v73) = Gen.W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v73 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.RunValue

end
-- ==== Proof.HostFns.lean ====
/-
  The host-side functions that BOTH programs apply, named once.

  Every graph-convolution layer aggregates a feature matrix X : [100000,128] over the edge list with self loops:
  the rows X[src e] are gathered, scaled by norm e = dinv[src e] * dinv[dst e], and summed into row dst e, where
  dinv = where(deg > 0, rsqrt deg, 0) and deg counts the edges arriving at a node.  None of this is opened by the
  certificate: the two programs apply the same operations to the same edge array, so the aggregation is carried as
  ONE function `agg` of the edge array and the feature matrix, and only the feature matrices going in are compared.
  `combined` is the [100000,7] input feature matrix (node features crossed with colour features) cut out of the
  flat observation vector.
-/
import proofs.«168326_j28561532518999_1_alg».proof.KernelIdeal
import proofs.«168326_j28561532518999_1_alg».proof.Proof.Gen.KernelIdeal

noncomputable section

namespace Cert.KernelIdeal.HostFns

open Cert.KernelIdeal Cert.KernelIdeal.Gen Idealize.ShloMosaic

variable {F : FTy → Type} [FloatOps F]

/-- The input features: node features [5000,4] and colour features [20,3] sliced out of the observation vector,
    each repeated along the other's axis, joined along the feature axis and flattened to [100000,7]. -/
def combined (x0 : (⟨S1x20063, .f32⟩ : BufTy).Contents (Elt F)) : (⟨S100000x7, .f32⟩ : BufTy).Contents (Elt F) :=
  shapeCast _ (concatenate S1x5000x20x7 3 [⟨S1x5000x20x4, (broadcastInDim S1x5000x20x4 ![0, 1, 2, 3] bcast_S1x5000x1x4_S1x5000x20x4_0_1_2_3 (broadcastInDim S1x5000x1x4 ![0, 1, 3] bcast_S1x5000x4_S1x5000x1x4_0_1_3 (shapeCast _ (extractStridedSlice S1x20000 ![0, 3] x0 slices_S1x20063_S1x20000_0_3) shapeCasts_S1x20000_S1x5000x4)))⟩, ⟨S1x5000x20x3, (broadcastInDim S1x5000x20x3 ![0, 1, 2, 3] bcast_S1x1x20x3_S1x5000x20x3_0_1_2_3 (broadcastInDim S1x1x20x3 ![0, 2, 3] bcast_S1x20x3_S1x1x20x3_0_2_3 (shapeCast _ (extractStridedSlice S1x60 ![0, 20003] x0 slices_S1x20063_S1x60_0_20003) shapeCasts_S1x60_S1x20x3)))⟩] concatenates_S1x5000x20x4_S1x5000x20x3_S1x5000x20x7_d3) shapeCasts_S1x5000x20x7_S100000x7

/-- Edge sources followed by the self loops 0 … 99999. -/
def src (x1 : (⟨S2x1600000, .i32⟩ : BufTy).Contents (Elt F)) : (⟨S1700000, .i32⟩ : BufTy).Contents (Elt F) :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- Edge targets followed by the self loops 0 … 99999. -/
def dst (x1 : (⟨S2x1600000, .i32⟩ : BufTy).Contents (Elt F)) : (⟨S1700000, .i32⟩ : BufTy).Contents (Elt F) :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- jnp's index normalisation: a negative index counts from the end. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- The number of edges arriving at each node. -/
def deg (x1 : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dst x1)) (broadcastInDim S1700000 ![] bcast_S_S1700000 (constant S_ .f32 0x3F800000#32))

/-- where(deg > 0, rsqrt deg, 0). -/
def dinv (x1 : (⟨S2x1600000, .i32⟩ : BufTy).Contents (Elt F)) : (⟨S100000, .f32⟩ : BufTy).Contents (Elt F) :=
  select (cmpf .ogt (deg x1) (broadcastInDim S100000 ![] bcast_S_S100000 (constant S_ .f32 0x00000000#32))) (Host.rsqrt (deg x1)) (broadcastInDim S100000 ![] bcast_S_S100000 (id (constant S_ .f32 0x00000000#32)))

/-- The edge weights dinv[src e] * dinv[dst e]. -/
def norm (x1 : (⟨S2x1600000, .i32⟩ : BufTy).Contents (Elt F)) : (⟨S1700000, .f32⟩ : BufTy).Contents (Elt F) :=
  mulf (Host.gather gather_S100000_S1700000x1_S1700000_n_0_n_n_0_1_1 (dinv x1) (broadcastInDim S1700000x1 ![0] bcast_S1700000_S1700000x1_0 (wrap (src x1)))) (Host.gather gather_S100000_S1700000x1_S1700000_n_0_n_n_0_1_1 (dinv x1) (broadcastInDim S1700000x1 ![0] bcast_S1700000_S1700000x1_0 (wrap (dst x1))))

/-- One aggregation: out[dst e] += norm e * X[src e] over all edges and self loops, from zeros. -/
def agg (sv dv : (⟨S1700000, .i32⟩ : BufTy).Contents (Elt F)) (nv : (⟨S1700000, .f32⟩ : BufTy).Contents (Elt F))
    (X : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dv) (mulf (Host.gather gather_S100000x128_S1700000x1_S1700000x128_1_0_n_n_0_1_1128 X (broadcastInDim S1700000x1 ![0] bcast_S1700000_S1700000x1_0 (wrap sv))) (broadcastInDim S1700000x128 ![0, 1] bcast_S1700000x1_S1700000x128_0_1 (broadcastInDim S1700000x1 ![0] bcast_S1700000_S1700000x1_0 nv)))

end Cert.KernelIdeal.HostFns

end
-- ==== Proof.KernelFold.lean ====
/-
  The kernel program's buffer contents, read back through its run.

  The generated frame certificate names the TensorCore's buffers at every boundary of the run as a fold from the
  launch memory `m`: `W1`, `W2`, `W3` after the three opening stretches of host operations, `W4` at region 0's
  exit, `W5` after the next stretch, `W6` at region 1's exit, `W7` after the next stretch, `W8` at region 2's exit
  and `W9` after the closing reshape.  This module evaluates that fold at the buffers the three regions read and at
  the buffer the program returns, in terms of the host functions named in `HostFns`.  Writing `x0` and `x1` for the
  launch contents of the first two arguments (the observation vector and the edge array) on a core:

  * region 0 finds the input features `combined x0` and the first weight matrix as launched;
  * region 1 finds the aggregation `agg (src x1) (dst x1) (norm x1)` of region 0's output, its bias as a row, and
    the second weight matrix as launched;
  * region 2 finds the same aggregation of region 1's output, and its biases and weights as launched (the
    one-dimensional ones read as rows);
  * the result is region 2's output column read as a row.

  Two kinds of step walk a buffer back through the fold.  A stretch of host operations that does not write the buffer
  leaves it alone, and a region leaves every buffer that is not one of its windows' arrays alone; so the edge lists,
  the edge weights and the argument arrays keep, up to the point where they are read, the contents they received
  earlier.  A stretch that does write the buffer is evaluated: its operations' results are composed over the contents
  of the buffers it reads, which the previous boundary supplies.  A region's output array holds what its pipeline's
  write-backs leave (`Dat.arrAt … N`), which stays an opaque term here: what the regions compute is not this
  module's concern.
-/
import proofs.«168326_j28561532518999_1_alg».proof.Proof.Gen.KernelIdeal.Frame
import proofs.«168326_j28561532518999_1_alg».proof.Proof.HostFns

set_option maxRecDepth 16384

noncomputable section

namespace Cert.KernelIdeal.Fold

open Cert.KernelIdeal Cert.KernelIdeal.Gen Cert.KernelIdeal.HostFns
open Idealize.ShloMosaic Idealize.ShloMosaic.TcCoe

variable {F : FTy → Type} [FloatOps F]
variable (m : (ℓ : Loc nD τ sig) → Buf (Elt F) ℓ) (ρ : Dev nD → PrngReg)

/-- Closes `StableHlo.after ops V b = V b` for a literal stretch `ops` none of whose operations writes `b`:
    each operation's written buffer is a different reference. -/
local macro "keeps" : tactic => `(tactic| (
  refine StableHlo.after_of_forall_not_mem _ _ (List.forall_iff_forall_mem.mp ?_)
  simp only [hostOps0, hostOps0_1, hostOps0_2, hostOps1, hostOps2, hostOps3, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The first stretch of host operations: the input features, the edge lists, the degrees -/

/-- After the first stretch the feature buffer holds the input features cut out of the observation vector. -/
theorem W1_v9 (c : Dev nD) : W1 m ρ c (Proc.devRef .tc main_v9) = combined (m ((c : Thread nD τ).loc main_arg0)) := by
  show StableHlo.after hostOps0 _ (Proc.devRef .tc main_v9) = _
  after_results
  rfl

/-- … the edge sources with the self loops appended … -/
theorem W1_v13 (c : Dev nD) : W1 m ρ c (Proc.devRef .tc main_v13) = src (m ((c : Thread nD τ).loc main_arg1)) := by
  show StableHlo.after hostOps0 _ (Proc.devRef .tc main_v13) = _
  after_results
  rfl

/-- … the edge targets with the self loops appended … -/
theorem W1_v16 (c : Dev nD) : W1 m ρ c (Proc.devRef .tc main_v16) = dst (m ((c : Thread nD τ).loc main_arg1)) := by
  show StableHlo.after hostOps0 _ (Proc.devRef .tc main_v16) = _
  after_results
  rfl

/-- … the test "degree > 0" at every node … -/
theorem W1_v22 (c : Dev nD) : W1 m ρ c (Proc.devRef .tc main_v22)
    = cmpf .ogt (deg (m ((c : Thread nD τ).loc main_arg1))) (broadcastInDim S100000 ![] bcast_S_S100000 (constant S_ .f32 0x00000000#32)) := by
  show StableHlo.after hostOps0 _ (Proc.devRef .tc main_v22) = _
  after_results
  rfl

/-- … the reciprocal square root of every degree … -/
theorem W1_v23 (c : Dev nD) : W1 m ρ c (Proc.devRef .tc main_v23) = Host.rsqrt (deg (m ((c : Thread nD τ).loc main_arg1))) := by
  show StableHlo.after hostOps0 _ (Proc.devRef .tc main_v23) = _
  after_results
  rfl

/-- … and the scalar zero that fills the nodes of degree zero. -/
theorem W1_cst_2 (c : Dev nD) : W1 m ρ c (Proc.devRef .tc main_cst_2) = (constant S_ .f32 0x00000000#32 : (⟨S_, .f32⟩ : BufTy).Contents (Elt F)) := by
  show StableHlo.after hostOps0 _ (Proc.devRef .tc main_cst_2) = _
  after_results

/-! ## The second stretch (the call of `where`): the inverse square-root degrees -/

theorem W2_v24 (c : Dev nD) : W2 m ρ c (Proc.devRef .tc main_v24) = dinv (m ((c : Thread nD τ).loc main_arg1)) := by
  show StableHlo.after hostOps0_1 _ (Proc.devRef .tc main_v24) = _
  have h0 := W1_v22 m ρ c
  have h1 := W1_v23 m ρ c
  have h2 := W1_cst_2 m ρ c
  generalize W1 m ρ c = V at h0 h1 h2 ⊢
  after_results
  rw [h0, h1, h2]
  rfl

theorem W2_v13 (c : Dev nD) : W2 m ρ c (Proc.devRef .tc main_v13) = src (m ((c : Thread nD τ).loc main_arg1)) :=
  (show W2 m ρ c (Proc.devRef .tc main_v13) = W1 m ρ c (Proc.devRef .tc main_v13) by keeps).trans (W1_v13 m ρ c)

theorem W2_v16 (c : Dev nD) : W2 m ρ c (Proc.devRef .tc main_v16) = dst (m ((c : Thread nD τ).loc main_arg1)) :=
  (show W2 m ρ c (Proc.devRef .tc main_v16) = W1 m ρ c (Proc.devRef .tc main_v16) by keeps).trans (W1_v16 m ρ c)

/-! ## The third stretch: the edge weights; what region 0 finds -/

theorem W3_v13 (c : Dev nD) : W3 m ρ c (Proc.devRef .tc main_v13) = src (m ((c : Thread nD τ).loc main_arg1)) :=
  (show W3 m ρ c (Proc.devRef .tc main_v13) = W2 m ρ c (Proc.devRef .tc main_v13) by keeps).trans (W2_v13 m ρ c)

theorem W3_v16 (c : Dev nD) : W3 m ρ c (Proc.devRef .tc main_v16) = dst (m ((c : Thread nD τ).loc main_arg1)) :=
  (show W3 m ρ c (Proc.devRef .tc main_v16) = W2 m ρ c (Proc.devRef .tc main_v16) by keeps).trans (W2_v16 m ρ c)

/-- The edge weights: the inverse square-root degrees gathered at both ends of every edge and multiplied. -/
theorem W3_v39 (c : Dev nD) : W3 m ρ c (Proc.devRef .tc main_v39) = norm (m ((c : Thread nD τ).loc main_arg1)) := by
  show StableHlo.after hostOps0_2 _ (Proc.devRef .tc main_v39) = _
  have h0 := W2_v24 m ρ c
  have h1 := W2_v13 m ρ c
  have h2 := W2_v16 m ρ c
  generalize W2 m ρ c = V at h0 h1 h2 ⊢
  after_results_simp
  rw [h0, h1, h2]
  rfl

theorem W3_v9 (c : Dev nD) : W3 m ρ c (Proc.devRef .tc main_v9) = combined (m ((c : Thread nD τ).loc main_arg0)) :=
  calc W3 m ρ c (Proc.devRef .tc main_v9)
    _ = W2 m ρ c (Proc.devRef .tc main_v9) := by keeps
    _ = W1 m ρ c (Proc.devRef .tc main_v9) := by keeps
    _ = combined (m ((c : Thread nD τ).loc main_arg0)) := W1_v9 m ρ c

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by keeps
    _ = W1 m ρ c (Proc.devRef .tc main_arg2) := by keeps
    _ = W0 m ρ c (Proc.devRef .tc main_arg2) := by keeps
    _ = m ((c : Thread nD τ).loc main_arg2) := rfl

/-! ## Region 0's exit: its output array holds what the pipeline's write-backs leave, every other buffer is kept -/

theorem W4_v40 (c : Dev nD) : W4 m ρ c (Proc.devRef .tc main_v40) = ((dat0 (V3 m ρ) c).arrAt 2 cfg0.N) := W4_arr m ρ c 2

theorem W4_v13 (c : Dev nD) : W4 m ρ c (Proc.devRef .tc main_v13) = src (m ((c : Thread nD τ).loc main_arg1)) :=
  calc W4 m ρ c (Proc.devRef .tc main_v13)
    _ = W3 m ρ c (Proc.devRef .tc main_v13) := W4_of_ne m ρ c main_v13 (by decide)
    _ = src (m ((c : Thread nD τ).loc main_arg1)) := W3_v13 m ρ c

theorem W4_v16 (c : Dev nD) : W4 m ρ c (Proc.devRef .tc main_v16) = dst (m ((c : Thread nD τ).loc main_arg1)) :=
  calc W4 m ρ c (Proc.devRef .tc main_v16)
    _ = W3 m ρ c (Proc.devRef .tc main_v16) := W4_of_ne m ρ c main_v16 (by decide)
    _ = dst (m ((c : Thread nD τ).loc main_arg1)) := W3_v16 m ρ c

theorem W4_v39 (c : Dev nD) : W4 m ρ c (Proc.devRef .tc main_v39) = norm (m ((c : Thread nD τ).loc main_arg1)) :=
  calc W4 m ρ c (Proc.devRef .tc main_v39)
    _ = W3 m ρ c (Proc.devRef .tc main_v39) := W4_of_ne m ρ c main_v39 (by decide)
    _ = norm (m ((c : Thread nD τ).loc main_arg1)) := W3_v39 m ρ c

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by keeps
    _ = W1 m ρ c (Proc.devRef .tc main_arg3) := by keeps
    _ = W0 m ρ c (Proc.devRef .tc main_arg3) := by keeps
    _ = m ((c : Thread nD τ).loc main_arg3) := rfl

/-! ## The stretch between regions 0 and 1: the first aggregation, of region 0's output; the bias row -/

/-- The rows of region 0's output gathered at the edge sources, scaled by the edge weights and summed at the edge targets. -/
theorem W5_v53 (c : Dev nD) : W5 m ρ c (Proc.devRef .tc main_v53) = agg (src (m ((c : Thread nD τ).loc main_arg1))) (dst (m ((c : Thread nD τ).loc main_arg1))) (norm (m ((c : Thread nD τ).loc main_arg1))) ((dat0 (V3 m ρ) c).arrAt 2 cfg0.N) := by
  show StableHlo.after hostOps1 _ (Proc.devRef .tc main_v53) = _
  have h0 := W4_v40 m ρ c
  have h1 := W4_v13 m ρ c
  have h2 := W4_v16 m ρ c
  have h3 := W4_v39 m ρ c
  generalize W4 m ρ c = V at h0 h1 h2 h3 ⊢
  after_results_simp
  rw [h0, h1, h2, h3]
  rfl

theorem W5_v54 (c : Dev nD) : W5 m ρ c (Proc.devRef .tc main_v54) = shapeCast _ (m ((c : Thread nD τ).loc main_arg3)) shapeCasts_S128_S1x128 := by
  show StableHlo.after hostOps1 _ (Proc.devRef .tc main_v54) = _
  have h0 := W4_main_arg3 m ρ c
  generalize W4 m ρ c = V at h0 ⊢
  after_results
  rw [h0]
  rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by keeps
    _ = W3 m ρ c (Proc.devRef .tc main_arg4) := W4_of_ne m ρ c main_arg4 (by decide)
    _ = W2 m ρ c (Proc.devRef .tc main_arg4) := by keeps
    _ = W1 m ρ c (Proc.devRef .tc main_arg4) := by keeps
    _ = W0 m ρ c (Proc.devRef .tc main_arg4) := by keeps
    _ = m ((c : Thread nD τ).loc main_arg4) := rfl

/-! ## Region 1's exit -/

theorem W6_v55 (c : Dev nD) : W6 m ρ c (Proc.devRef .tc main_v55) = ((dat1 (V5 m ρ) c).arrAt 3 cfg1.N) := W6_arr m ρ c 3

theorem W6_v13 (c : Dev nD) : W6 m ρ c (Proc.devRef .tc main_v13) = src (m ((c : Thread nD τ).loc main_arg1)) :=
  calc W6 m ρ c (Proc.devRef .tc main_v13)
    _ = W5 m ρ c (Proc.devRef .tc main_v13) := W6_of_ne m ρ c main_v13 (by decide)
    _ = W4 m ρ c (Proc.devRef .tc main_v13) := by keeps
    _ = W3 m ρ c (Proc.devRef .tc main_v13) := W4_of_ne m ρ c main_v13 (by decide)
    _ = src (m ((c : Thread nD τ).loc main_arg1)) := W3_v13 m ρ c

theorem W6_v16 (c : Dev nD) : W6 m ρ c (Proc.devRef .tc main_v16) = dst (m ((c : Thread nD τ).loc main_arg1)) :=
  calc W6 m ρ c (Proc.devRef .tc main_v16)
    _ = W5 m ρ c (Proc.devRef .tc main_v16) := W6_of_ne m ρ c main_v16 (by decide)
    _ = W4 m ρ c (Proc.devRef .tc main_v16) := by keeps
    _ = W3 m ρ c (Proc.devRef .tc main_v16) := W4_of_ne m ρ c main_v16 (by decide)
    _ = dst (m ((c : Thread nD τ).loc main_arg1)) := W3_v16 m ρ c

theorem W6_v39 (c : Dev nD) : W6 m ρ c (Proc.devRef .tc main_v39) = norm (m ((c : Thread nD τ).loc main_arg1)) :=
  calc W6 m ρ c (Proc.devRef .tc main_v39)
    _ = W5 m ρ c (Proc.devRef .tc main_v39) := W6_of_ne m ρ c main_v39 (by decide)
    _ = W4 m ρ c (Proc.devRef .tc main_v39) := by keeps
    _ = W3 m ρ c (Proc.devRef .tc main_v39) := W4_of_ne m ρ c main_v39 (by decide)
    _ = norm (m ((c : Thread nD τ).loc main_arg1)) := W3_v39 m ρ c

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by keeps
    _ = W3 m ρ c (Proc.devRef .tc main_arg5) := W4_of_ne m ρ c main_arg5 (by decide)
    _ = W2 m ρ c (Proc.devRef .tc main_arg5) := by keeps
    _ = W1 m ρ c (Proc.devRef .tc main_arg5) := by keeps
    _ = W0 m ρ c (Proc.devRef .tc main_arg5) := by keeps
    _ = m ((c : Thread nD τ).loc main_arg5) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by keeps
    _ = W3 m ρ c (Proc.devRef .tc main_arg7) := W4_of_ne m ρ c main_arg7 (by decide)
    _ = W2 m ρ c (Proc.devRef .tc main_arg7) := by keeps
    _ = W1 m ρ c (Proc.devRef .tc main_arg7) := by keeps
    _ = W0 m ρ c (Proc.devRef .tc main_arg7) := by keeps
    _ = m ((c : Thread nD τ).loc main_arg7) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by keeps
    _ = W3 m ρ c (Proc.devRef .tc main_arg9) := W4_of_ne m ρ c main_arg9 (by decide)
    _ = W2 m ρ c (Proc.devRef .tc main_arg9) := by keeps
    _ = W1 m ρ c (Proc.devRef .tc main_arg9) := by keeps
    _ = W0 m ρ c (Proc.devRef .tc main_arg9) := by keeps
    _ = m ((c : Thread nD τ).loc main_arg9) := rfl

/-! ## The stretch between regions 1 and 2: the second aggregation, of region 1's output; the bias rows -/

theorem W7_v68 (c : Dev nD) : W7 m ρ c (Proc.devRef .tc main_v68) = agg (src (m ((c : Thread nD τ).loc main_arg1))) (dst (m ((c : Thread nD τ).loc main_arg1))) (norm (m ((c : Thread nD τ).loc main_arg1))) ((dat1 (V5 m ρ) c).arrAt 3 cfg1.N) := by
  show StableHlo.after hostOps2 _ (Proc.devRef .tc main_v68) = _
  have h0 := W6_v55 m ρ c
  have h1 := W6_v13 m ρ c
  have h2 := W6_v16 m ρ c
  have h3 := W6_v39 m ρ c
  generalize W6 m ρ c = V at h0 h1 h2 h3 ⊢
  after_results_simp
  rw [h0, h1, h2, h3]
  rfl

theorem W7_v69 (c : Dev nD) : W7 m ρ c (Proc.devRef .tc main_v69) = shapeCast _ (m ((c : Thread nD τ).loc main_arg5)) shapeCasts_S128_S1x128 := by
  show StableHlo.after hostOps2 _ (Proc.devRef .tc main_v69) = _
  have h0 := W6_main_arg5 m ρ c
  generalize W6 m ρ c = V at h0 ⊢
  after_results
  rw [h0]
  rfl

theorem W7_v70 (c : Dev nD) : W7 m ρ c (Proc.devRef .tc main_v70) = shapeCast _ (m ((c : Thread nD τ).loc main_arg7)) shapeCasts_S128_S1x128 := by
  show StableHlo.after hostOps2 _ (Proc.devRef .tc main_v70) = _
  have h0 := W6_main_arg7 m ρ c
  generalize W6 m ρ c = V at h0 ⊢
  after_results
  rw [h0]
  rfl

theorem W7_v71 (c : Dev nD) : W7 m ρ c (Proc.devRef .tc main_v71) = shapeCast _ (m ((c : Thread nD τ).loc main_arg9)) shapeCasts_S1_S1x1 := by
  show StableHlo.after hostOps2 _ (Proc.devRef .tc main_v71) = _
  have h0 := W6_main_arg9 m ρ c
  generalize W6 m ρ c = V at h0 ⊢
  after_results
  rw [h0]
  rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := by keeps
    _ = W5 m ρ c (Proc.devRef .tc main_arg6) := W6_of_ne m ρ c main_arg6 (by decide)
    _ = W4 m ρ c (Proc.devRef .tc main_arg6) := by keeps
    _ = W3 m ρ c (Proc.devRef .tc main_arg6) := W4_of_ne m ρ c main_arg6 (by decide)
    _ = W2 m ρ c (Proc.devRef .tc main_arg6) := by keeps
    _ = W1 m ρ c (Proc.devRef .tc main_arg6) := by keeps
    _ = W0 m ρ c (Proc.devRef .tc main_arg6) := by keeps
    _ = m ((c : Thread nD τ).loc main_arg6) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := by keeps
    _ = W5 m ρ c (Proc.devRef .tc main_arg8) := W6_of_ne m ρ c main_arg8 (by decide)
    _ = W4 m ρ c (Proc.devRef .tc main_arg8) := by keeps
    _ = W3 m ρ c (Proc.devRef .tc main_arg8) := W4_of_ne m ρ c main_arg8 (by decide)
    _ = W2 m ρ c (Proc.devRef .tc main_arg8) := by keeps
    _ = W1 m ρ c (Proc.devRef .tc main_arg8) := by keeps
    _ = W0 m ρ c (Proc.devRef .tc main_arg8) := by keeps
    _ = m ((c : Thread nD τ).loc main_arg8) := rfl

/-! ## Region 2's exit and the last reshape: the value returned -/

theorem W8_v72 (c : Dev nD) : W8 m ρ c (Proc.devRef .tc main_v72) = ((dat2 (V7 m ρ) c).arrAt 6 cfg2.N) := W8_arr m ρ c 6

/-- The program's result: region 2's output column, read as a row. -/
theorem W9_v73 (c : Dev nD) : W9 m ρ c (Proc.devRef .tc main_v73) = shapeCast _ ((dat2 (V7 m ρ) c).arrAt 6 cfg2.N) shapeCasts_S100000x1_S1x100000 := by
  show StableHlo.after hostOps3 _ (Proc.devRef .tc main_v73) = _
  have h0 := W8_v72 m ρ c
  generalize W8 m ρ c = V at h0 ⊢
  after_results
  rw [h0]
  rfl

/-! ## What each region finds in its windows' arrays -/

theorem V3_v9 (c : Dev nD) : V3 m ρ c main_v9 = combined (m ((c : Thread nD τ).loc main_arg0)) := W3_v9 m ρ c
theorem V3_arg2 (c : Dev nD) : V3 m ρ c main_arg2 = m ((c : Thread nD τ).loc main_arg2) := W3_main_arg2 m ρ c
theorem V5_v53 (c : Dev nD) : V5 m ρ c main_v53 = agg (src (m ((c : Thread nD τ).loc main_arg1))) (dst (m ((c : Thread nD τ).loc main_arg1))) (norm (m ((c : Thread nD τ).loc main_arg1))) ((dat0 (V3 m ρ) c).arrAt 2 cfg0.N) := W5_v53 m ρ c
theorem V5_v54 (c : Dev nD) : V5 m ρ c main_v54 = shapeCast _ (m ((c : Thread nD τ).loc main_arg3)) shapeCasts_S128_S1x128 := W5_v54 m ρ c
theorem V5_arg4 (c : Dev nD) : V5 m ρ c main_arg4 = m ((c : Thread nD τ).loc main_arg4) := W5_main_arg4 m ρ c
theorem V7_v68 (c : Dev nD) : V7 m ρ c main_v68 = agg (src (m ((c : Thread nD τ).loc main_arg1))) (dst (m ((c : Thread nD τ).loc main_arg1))) (norm (m ((c : Thread nD τ).loc main_arg1))) ((dat1 (V5 m ρ) c).arrAt 3 cfg1.N) := W7_v68 m ρ c
theorem V7_v69 (c : Dev nD) : V7 m ρ c main_v69 = shapeCast _ (m ((c : Thread nD τ).loc main_arg5)) shapeCasts_S128_S1x128 := W7_v69 m ρ c
theorem V7_arg6 (c : Dev nD) : V7 m ρ c main_arg6 = m ((c : Thread nD τ).loc main_arg6) := W7_main_arg6 m ρ c
theorem V7_v70 (c : Dev nD) : V7 m ρ c main_v70 = shapeCast _ (m ((c : Thread nD τ).loc main_arg7)) shapeCasts_S128_S1x128 := W7_v70 m ρ c
theorem V7_arg8 (c : Dev nD) : V7 m ρ c main_arg8 = m ((c : Thread nD τ).loc main_arg8) := W7_main_arg8 m ρ c
theorem V7_v71 (c : Dev nD) : V7 m ρ c main_v71 = shapeCast _ (m ((c : Thread nD τ).loc main_arg9)) shapeCasts_S1_S1x1 := W7_v71 m ρ c

end Cert.KernelIdeal.Fold

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Payloads.lean ====
/-
  What each kernel body stores, read at an entry, over the extended reals.

  The three bodies are dense layers on a block of 10000 rows:
    layer 0:  out[p,q] = Σ_k x[p,k] · W[k,q]
    layer 1:  out[p,q] = Σ_k max(a[p,k] + b[0,k], 0) · W[k,q]
    head   :  out[p,u] = Σ_k max((Σ_j max(a[p,j] + b[0,j], 0) · W1[j,k]) + c[0,k], 0) · W2[k,u]  +  d[0,0]
  Each matrix product is accumulated on the matrix unit from the zero splat (a plain sum over the contracted
  axis at Ideal), a bias is a [1,n] row repeated down the rows, and the clamp is a maximum with a splat zero.
  Row p of the result depends on row p of the first operand only, which is what lets the row blocks be glued.
-/
import proofs.«168326_j28561532518999_1_alg».proof.Proof.Gen.KernelIdeal.Skeleton
import proofs.«168326_j28561532518999_1_alg».proof.Proof.LibMatmulNN
import Idealize.ShloMosaic.Lib.Pipeline.Value
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx

/-- A [1,n] row repeated down 10000 rows reads, at (p, k), the row's entry k. -/
theorem row128_apply (v : FVec Ideal S1x128 .f32) (p : Fin 10000) (k : Fin 128) :
    broadcastTo S10000x128 v broadcasts_S1x128_S10000x128 (ix2 p k) = v (ix2 (0 : Fin 1) k) :=
  broadcastTo_apply v broadcasts_S1x128_S10000x128 (ix2 p k) (ix2 (0 : Fin 1) k) fun a => by
    match a with
    | ⟨0, _⟩ => rfl
    | ⟨1, _⟩ => rfl

/-- A [1,1] entry repeated down 10000 rows reads that entry. -/
theorem row1_apply (v : FVec Ideal S1x1 .f32) (p : Fin 10000) (u : Fin 1) :
    broadcastTo S10000x1 v broadcasts_S1x1_S10000x1 (ix2 p u) = v (ix2 (0 : Fin 1) (0 : Fin 1)) :=
  broadcastTo_apply v broadcasts_S1x1_S10000x1 (ix2 p u) (ix2 (0 : Fin 1) (0 : Fin 1)) fun a => by
    match a with
    | ⟨0, _⟩ => rfl
    | ⟨1, _⟩ => rfl

/-- Layer 0's block: the product of the row block with the weights. -/
theorem pay0_apply (x0 : FVec Ideal S10000x7 .f32) (x1 : FVec Ideal S7x128 .f32) (p : Fin 10000) (q : Fin 128) :
    k0_pay1 (F := Ideal) x0 x1 (ix2 p q) = ∑ k : Fin 7, x0 (ix2 p k) * x1 (ix2 k q) := by
  unfold k0_pay1
  rw [shapeCast_self]
  exact Cert.MatmulNN.matmul_zero_apply dot_S10000x7_S7x128_S10000x128_1_0_0_1_n_n rfl none x0 x1 p q

/-- The clamped, biased rows that layers 1 and the head multiply: max(a[p,k] + b[0,k], 0). -/
theorem act_apply (x0 : FVec Ideal S10000x128 .f32) (x1 : FVec Ideal S1x128 .f32) (p : Fin 10000) (k : Fin 128) :
    maximumf (addf (shapeCast S10000x128 x0 shapeCasts_S10000x128_S10000x128)
        (broadcastTo S10000x128 (shapeCast S1x128 x1 shapeCasts_S1x128_S1x128) broadcasts_S1x128_S10000x128))
      (broadcast S10000x128 (Scalar.ofBits (F := Ideal) .f32 0x00000000#32)) (ix2 p k)
      = FloatOps.maximumf (FloatOps.addf (x0 (ix2 p k)) (x1 (ix2 (0 : Fin 1) k))) (FloatOps.ofBits (F := Ideal) .f32 0x00000000#32) := by
  rw [shapeCast_self, shapeCast_self]
  show FloatOps.maximumf (FloatOps.addf (x0 (ix2 p k)) (broadcastTo S10000x128 x1 broadcasts_S1x128_S10000x128 (ix2 p k))) _ = _
  rw [row128_apply]
  rfl

/-- Layer 1's block. -/
theorem pay1_apply (x0 : FVec Ideal S10000x128 .f32) (x1 : FVec Ideal S1x128 .f32) (x2 : FVec Ideal S128x128 .f32)
    (p : Fin 10000) (q : Fin 128) :
    k1_pay1 (F := Ideal) x0 x1 x2 (ix2 p q)
      = ∑ k : Fin 128, FloatOps.maximumf (FloatOps.addf (x0 (ix2 p k)) (x1 (ix2 (0 : Fin 1) k))) (FloatOps.ofBits (F := Ideal) .f32 0x00000000#32)
          * x2 (ix2 k q) := by
  unfold k1_pay1
  refine (Cert.MatmulNN.matmul_zero_apply dot_S10000x128_S128x128_S10000x128_1_0_0_1_n_n rfl none _ x2 p q).trans ?_
  refine Finset.sum_congr rfl fun k _ => ?_
  rw [act_apply]

/-- The head's block. -/
theorem pay2_apply (x0 : FVec Ideal S10000x128 .f32) (x1 : FVec Ideal S1x128 .f32) (x2 : FVec Ideal S128x128 .f32)
    (x3 : FVec Ideal S1x128 .f32) (x4 : FVec Ideal S128x1 .f32) (x5 : FVec Ideal S1x1 .f32) (p : Fin 10000) (u : Fin 1) :
    k2_pay1 (F := Ideal) x0 x1 x2 x3 x4 x5 (ix2 p u)
      = FloatOps.addf
          (∑ k : Fin 128,
            FloatOps.maximumf
                (FloatOps.addf
                  (∑ j : Fin 128, FloatOps.maximumf (FloatOps.addf (x0 (ix2 p j)) (x1 (ix2 (0 : Fin 1) j))) (FloatOps.ofBits (F := Ideal) .f32 0x00000000#32)
                    * x2 (ix2 j k))
                  (x3 (ix2 (0 : Fin 1) k)))
                (FloatOps.ofBits (F := Ideal) .f32 0x00000000#32)
              * x4 (ix2 k u))
          (x5 (ix2 (0 : Fin 1) (0 : Fin 1))) := by
  unfold k2_pay1
  rw [shapeCast_self x3, shapeCast_self x5]
  show FloatOps.addf _ (broadcastTo S10000x1 x5 broadcasts_S1x1_S10000x1 (ix2 p u)) = _
  rw [row1_apply]
  refine congrArg (fun z => FloatOps.addf z (x5 (ix2 (0 : Fin 1) (0 : Fin 1)))) ?_
  refine (Cert.MatmulNN.matmul_zero_apply dot_S10000x128_S128x1_S10000x1_1_0_0_1_n_n rfl none _ x4 p u).trans ?_
  refine Finset.sum_congr rfl fun k _ => ?_
  refine congrArg (fun z => z * x4 (ix2 k u)) ?_
  show FloatOps.maximumf (FloatOps.addf _ (broadcastTo S10000x128 x3 broadcasts_S1x128_S10000x128 (ix2 p k))) _ = _
  rw [row128_apply]
  refine congrArg (fun z => FloatOps.maximumf (FloatOps.addf z (x3 (ix2 (0 : Fin 1) k))) (FloatOps.ofBits (F := Ideal) .f32 0x00000000#32)) ?_
  refine (Cert.MatmulNN.matmul_zero_apply dot_S10000x128_S128x128_S10000x128_1_0_0_1_n_n rfl none _ x2 p k).trans ?_
  refine Finset.sum_congr rfl fun j _ => ?_
  rw [act_apply]

end Cert.KernelIdeal.Payloads

end
-- ==== Proof.Dense.lean ====
/-
  The three dense layers as whole-array functions over the extended reals, entry by entry.

    layer0 A W        [r,q] = Σ_k A[r,k] · W[k,q]
    layer1 A b W      [r,q] = Σ_k max(A[r,k] + b[0,k], 0) · W[k,q]
    head A b W1 c W2 d [r,u] = Σ_k max((Σ_j max(A[r,j] + b[0,j], 0) · W1[j,k]) + c[0,k], 0) · W2[k,u]  +  d[0,0]

  with the biases kept as [1,n] rows and the clamp's zero as the f32 zero word, the spellings both programs use.
-/
import proofs.«168326_j28561532518999_1_alg».proof.KernelIdeal
import Idealize.ShloMosaic.Lib.ValueIdx
import Idealize.ShloMosaic.PureOps.Ideal

noncomputable section

namespace Cert.KernelIdeal.Dense

open Cert.KernelIdeal Idealize.ShloMosaic Idealize.ShloMosaic.ValueIdx

/-- max(A[r,k] + b[0,k], 0): a row of a layer's input after bias and clamp. -/
def act (A : S100000x128.Idx → EReal) (b : S1x128.Idx → EReal) (r : Fin 100000) (k : Fin 128) : EReal :=
  FloatOps.maximumf (F := Ideal) (φ := .f32) (FloatOps.addf (F := Ideal) (φ := .f32) (A (ix2 r k)) (b (ix2 (0 : Fin 1) k))) (FloatOps.ofBits (F := Ideal) .f32 0x00000000#32)

/-- out[r,q] = Σ_k A[r,k] · W[k,q]. -/
def layer0 (A : S100000x7.Idx → EReal) (W : S7x128.Idx → EReal) : S100000x128.Idx → EReal :=
  fun i => ∑ k : Fin 7, A (ix2 (⟨(i 0).val, (i 0).isLt⟩ : Fin 100000) k) * W (ix2 k (⟨(i 1).val, (i 1).isLt⟩ : Fin 128))

/-- out[r,q] = Σ_k max(A[r,k] + b[0,k], 0) · W[k,q]. -/
def layer1 (A : S100000x128.Idx → EReal) (b : S1x128.Idx → EReal) (W : S128x128.Idx → EReal) : S100000x128.Idx → EReal :=
  fun i => ∑ k : Fin 128, act A b (⟨(i 0).val, (i 0).isLt⟩ : Fin 100000) k * W (ix2 k (⟨(i 1).val, (i 1).isLt⟩ : Fin 128))

/-- out[r,u] = Σ_k max((Σ_j max(A[r,j] + b[0,j], 0) · W1[j,k]) + c[0,k], 0) · W2[k,u] + d[0,0]. -/
def head (A : S100000x128.Idx → EReal) (b : S1x128.Idx → EReal) (W1 : S128x128.Idx → EReal) (c : S1x128.Idx → EReal)
    (W2 : S128x1.Idx → EReal) (d : S1x1.Idx → EReal) : S100000x1.Idx → EReal :=
  fun i => FloatOps.addf (F := Ideal) (φ := .f32)
    (∑ k : Fin 128,
      FloatOps.maximumf (F := Ideal) (φ := .f32)
          (FloatOps.addf (F := Ideal) (φ := .f32) (∑ j : Fin 128, act A b (⟨(i 0).val, (i 0).isLt⟩ : Fin 100000) j * W1 (ix2 j k)) (c (ix2 (0 : Fin 1) k)))
          (FloatOps.ofBits (F := Ideal) .f32 0x00000000#32)
        * W2 (ix2 k (⟨(i 1).val, (i 1).isLt⟩ : Fin 1)))
    (d (ix2 (0 : Fin 1) (0 : Fin 1)))

end Cert.KernelIdeal.Dense

end
-- ==== Proof.Region0.lean ====
/-
  Region 0 (the first dense layer): the row blocks glued into the whole product.

  The pipeline walks ten blocks of 10000 rows.  At point t the body reads rows 10000·t … 10000·t + 9999 of the
  [100000,7] feature matrix and the whole [7,128] weight matrix, and writes the same rows of the [100000,128]
  result.  Row r of a product only reads row r of the left factor, so block t of the result is block t of the
  whole-array product  out[r,q] = Σ_k A[r,k] · W[k,q],  and the ten blocks tile the array: after the region the
  result array IS that product.
-/
import proofs.«168326_j28561532518999_1_alg».proof.Proof.Gen.KernelIdeal.Frame
import proofs.«168326_j28561532518999_1_alg».proof.Proof.Payloads
import proofs.«168326_j28561532518999_1_alg».proof.Proof.Dense
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.Dense (layer0)

variable (V : (c : Dev nD) → (b : Ref sig .tc) → Buf (Elt Ideal) ((c : Thread nD τ).loc b))

theorem hz : (![0, 0] : Fin 2 → Nat) = fun _ => 0 := funext fun a => by fin_cases a <;> rfl

/-- A block of the product from a block of rows: if the block's rows are rows o·10000 + p of A, its product with W
    at (p, q) is the whole product at (o·10000 + p, q). -/
theorem block_eq (A : S100000x7.Idx → EReal) (W : S7x128.Idx → EReal) (x0 : FVec Ideal S10000x7 .f32) (x1 : FVec Ideal S7x128 .f32)
    (o : Nat) (j : S10000x128.Idx) (i : S100000x128.Idx)
    (hi0 : (i 0).val = o * 10000 + (j 0).val) (hi1 : (i 1).val = (j 1).val)
    (h0 : ∀ (p : Fin 10000) (k : Fin 7) (r : Fin 100000), r.val = o * 10000 + p.val → x0 (ix2 p k) = A (ix2 r k))
    (h1 : ∀ (k : Fin 7) (q : Fin 128), x1 (ix2 k q) = W (ix2 k q)) :
    k0_pay1 (F := Ideal) x0 x1 j = layer0 A W i := by
  obtain ⟨p, q, rfl⟩ : ∃ (p : Fin 10000) (q : Fin 128), j = ix2 p q := ⟨j 0, j 1, eq_ix2 j⟩
  rw [Payloads.pay0_apply]
  unfold layer0
  refine Finset.sum_congr rfl fun k _ => ?_
  rw [h0 p k ⟨(i 0).val, (i 0).isLt⟩ hi0, h1 k q]
  have e : (⟨(i 1).val, (i 1).isLt⟩ : Fin 128) = q := Fin.ext hi1
  rw [e]

/-- The printed index maps over the grid: the row-block windows move together, the weights stay. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem idx_onto : ∀ (q0 : Fin 10), ∃ t : Fin cfg0.N, win0_2.index t = ![q0.val, 0] :=
  (by decide +kernel : ∀ (q0 : Fin 10), ∃ t : Fin grid0.N, win0_2.index t = ![q0.val, 0])

/-- What point t writes back is block t of the whole product of the arrays as the region finds them. -/
theorem flushed_eq (c : Dev nD) (t : Fin cfg0.N) :
    (dat0 V c).flushed 2 t = ((cfg0.win 2).blk t).view.read (Elt Ideal) (layer0 (V c main_v9) (V c main_arg2)) := by
  show (cfg0.win 2).cut (grid0.coords t) ((dat0 V c).after 2 t) = _
  rw [after0_2]
  unfold out0_2
  rw [View.canon_unit_zero hz]
  simp only [View.ld_unit_zero (S := S10000x7) hz, View.ld_unit_zero (S := S7x128) hz]
  obtain ⟨e0, e1, e2, e3, e4, e5⟩ := idx_facts t
  funext j
  show k0_pay1 (F := Ideal) (iblk0 V c 0 t) (iblk0 V c 1 t) j = layer0 (V c main_v9) (V c main_arg2) (((cfg0.win 2).blk t).view.emb j)
  refine block_eq (V c main_v9) (V c main_arg2) (iblk0 V c 0 t) (iblk0 V c 1 t) (win0_2.index t (0 : Fin 2)) j _ ?_ ?_ ?_ ?_
  · show win0_2.index t (0 : Fin 2) * 10000 + 1 * (j 0).val = _
    omega
  · show win0_2.index t (1 : Fin 2) * 128 + 1 * (j 1).val = _
    omega
  · intro p k r hr
    show V c main_v9 (((cfg0.win 0).blk t).view.emb (ix2 p k)) = V c main_v9 (ix2 r k)
    refine congrArg (V c main_v9) (funext fun a => Fin.ext ?_)
    match a with
    | ⟨0, _⟩ => show win0_0.index t (0 : Fin 2) * 10000 + 1 * p.val = r.val; omega
    | ⟨1, _⟩ => show win0_0.index t (1 : Fin 2) * 7 + 1 * k.val = k.val; omega
  · intro k q
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 7 + 1 * k.val = k.val; omega
    | ⟨1, _⟩ => show win0_1.index t (1 : Fin 2) * 128 + 1 * q.val = q.val; omega

/-- An index of the result array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v40).slice (win0_2.rect t)).set ↔ _
  rw [View.set_slice_whole, Rect.mem_set_unit]
  exact Iff.rfl

/-- The ten row blocks tile the result array: row r is in block r / 10000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the result array is the whole product of the feature matrix and the weights as the region found them. -/
theorem final (c : Dev nD) : (dat0 V c).arrAt 2 cfg0.N = layer0 (V c main_v9) (V c main_arg2) :=
  (dat0 V c).arrAt_eq_of_cover 2 (layer0 (V c main_v9) (V c main_arg2)) (fun t _ => flushed_eq V c t) cover

end Cert.KernelIdeal.Region0

end
-- ==== Proof.Region1.lean ====
/-
  Region 1 (the second dense layer): the row blocks glued into the whole layer.

  At point t the body reads rows 10000·t … 10000·t + 9999 of the aggregated features, the whole [1,128] bias row and the
  whole [128,128] weight matrix, and writes the same rows of the result.  Row r of
  out[r,q] = Σ_k max(A[r,k] + b[0,k], 0) · W[k,q]  only reads row r of A, so block t of the result is block t of that
  whole-array function, and the ten blocks tile the array.
-/
import proofs.«168326_j28561532518999_1_alg».proof.Proof.Gen.KernelIdeal.Frame
import proofs.«168326_j28561532518999_1_alg».proof.Proof.Payloads
import proofs.«168326_j28561532518999_1_alg».proof.Proof.Dense
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.Dense (layer1 act)

variable (V : (c : Dev nD) → (b : Ref sig .tc) → Buf (Elt Ideal) ((c : Thread nD τ).loc b))

theorem hz : (![0, 0] : Fin 2 → Nat) = fun _ => 0 := funext fun a => by fin_cases a <;> rfl

/-- A block of the layer from a block of rows: if the block's rows are rows o·10000 + p of A, the body's result at
    (p, q) is the whole layer at (o·10000 + p, q). -/
theorem block_eq (A : S100000x128.Idx → EReal) (b : S1x128.Idx → EReal) (W : S128x128.Idx → EReal)
    (x0 : FVec Ideal S10000x128 .f32) (x1 : FVec Ideal S1x128 .f32) (x2 : FVec Ideal S128x128 .f32)
    (o : Nat) (j : S10000x128.Idx) (i : S100000x128.Idx)
    (hi0 : (i 0).val = o * 10000 + (j 0).val) (hi1 : (i 1).val = (j 1).val)
    (h0 : ∀ (p : Fin 10000) (k : Fin 128) (r : Fin 100000), r.val = o * 10000 + p.val → x0 (ix2 p k) = A (ix2 r k))
    (h1 : ∀ (k : Fin 128), x1 (ix2 (0 : Fin 1) k) = b (ix2 (0 : Fin 1) k))
    (h2 : ∀ (k : Fin 128) (q : Fin 128), x2 (ix2 k q) = W (ix2 k q)) :
    k1_pay1 (F := Ideal) x0 x1 x2 j = layer1 A b W i := by
  obtain ⟨p, q, rfl⟩ : ∃ (p : Fin 10000) (q : Fin 128), j = ix2 p q := ⟨j 0, j 1, eq_ix2 j⟩
  rw [Payloads.pay1_apply]
  unfold layer1 act
  refine Finset.sum_congr rfl fun k _ => ?_
  rw [h0 p k ⟨(i 0).val, (i 0).isLt⟩ hi0, h1 k, h2 k q]
  have e : (⟨(i 1).val, (i 1).isLt⟩ : Fin 128) = q := Fin.ext hi1
  rw [e]

/-- The printed index maps over the grid: the row-block windows move together, the bias and the weights stay. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some point's. -/
theorem idx_onto : ∀ (q0 : Fin 10), ∃ t : Fin cfg1.N, win1_3.index t = ![q0.val, 0] :=
  (by decide +kernel : ∀ (q0 : Fin 10), ∃ t : Fin grid1.N, win1_3.index t = ![q0.val, 0])

/-- What point t writes back is block t of the whole layer of the arrays as the region finds them. -/
theorem flushed_eq (c : Dev nD) (t : Fin cfg1.N) :
    (dat1 V c).flushed 3 t = ((cfg1.win 3).blk t).view.read (Elt Ideal) (layer1 (V c main_v53) (V c main_v54) (V c main_arg4)) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x128) hz]
  obtain ⟨e0, e1, e2, e3, e4, e5, e6, e7⟩ := idx_facts t
  funext j
  show k1_pay1 (F := Ideal) (iblk1 V c 0 t) (iblk1 V c 1 t) (iblk1 V c 2 t) j
    = layer1 (V c main_v53) (V c main_v54) (V c main_arg4) (((cfg1.win 3).blk t).view.emb j)
  refine block_eq (V c main_v53) (V c main_v54) (V c main_arg4) (iblk1 V c 0 t) (iblk1 V c 1 t) (iblk1 V c 2 t)
    (win1_3.index t (0 : Fin 2)) j _ ?_ ?_ ?_ ?_ ?_
  · show win1_3.index t (0 : Fin 2) * 10000 + 1 * (j 0).val = _
    omega
  · show win1_3.index t (1 : Fin 2) * 128 + 1 * (j 1).val = _
    omega
  · intro p k r hr
    show V c main_v53 (((cfg1.win 0).blk t).view.emb (ix2 p k)) = V c main_v53 (ix2 r k)
    refine congrArg (V c main_v53) (funext fun a => Fin.ext ?_)
    match a with
    | ⟨0, _⟩ => show win1_0.index t (0 : Fin 2) * 10000 + 1 * p.val = r.val; omega
    | ⟨1, _⟩ => show win1_0.index t (1 : Fin 2) * 128 + 1 * k.val = k.val; omega
  · intro k
    show V c main_v54 (((cfg1.win 1).blk t).view.emb (ix2 (0 : Fin 1) k)) = V c main_v54 (ix2 (0 : Fin 1) k)
    refine congrArg (V c main_v54) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · intro k q
    show V c main_arg4 (((cfg1.win 2).blk t).view.emb (ix2 k q)) = V c main_arg4 (ix2 k q)
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega

/-- An index of the result array is in point t's block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v55).slice (win1_3.rect t)).set ↔ _
  rw [View.set_slice_whole, Rect.mem_set_unit]
  exact Iff.rfl

/-- The ten row blocks tile the result array: row r is in block r / 10000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- After the region the result array is the whole layer of the arrays as the region found them. -/
theorem final (c : Dev nD) : (dat1 V c).arrAt 3 cfg1.N = layer1 (V c main_v53) (V c main_v54) (V c main_arg4) :=
  (dat1 V c).arrAt_eq_of_cover 3 (layer1 (V c main_v53) (V c main_v54) (V c main_arg4)) (fun t _ => flushed_eq V c t) cover

end Cert.KernelIdeal.Region1

end
-- ==== Proof.Region2.lean ====
/-
  Region 2 (the perceptron head): the row blocks glued into the whole head.

  At point t the body reads rows 10000·t … 10000·t + 9999 of the aggregated features and the whole of two bias rows, two
  weight matrices and the final [1,1] bias, and writes the same rows of the [100000,1] result.  Row r of
    out[r,u] = Σ_k max((Σ_j max(A[r,j] + b[0,j], 0) · W1[j,k]) + c[0,k], 0) · W2[k,u] + d[0,0]
  only reads row r of A, so block t of the result is block t of that whole-array function, and the ten blocks tile it.
-/
import proofs.«168326_j28561532518999_1_alg».proof.Proof.Gen.KernelIdeal.Frame
import proofs.«168326_j28561532518999_1_alg».proof.Proof.Payloads
import proofs.«168326_j28561532518999_1_alg».proof.Proof.Dense
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.Dense (head act)

variable (V : (c : Dev nD) → (b : Ref sig .tc) → Buf (Elt Ideal) ((c : Thread nD τ).loc b))

theorem hz : (![0, 0] : Fin 2 → Nat) = fun _ => 0 := funext fun a => by fin_cases a <;> rfl

/-- A block of the head from a block of rows: if the block's rows are rows o·10000 + p of A, the body's result at
    (p, u) is the whole head at (o·10000 + p, u). -/
theorem block_eq (A : S100000x128.Idx → EReal) (b : S1x128.Idx → EReal) (W1 : S128x128.Idx → EReal) (cc : S1x128.Idx → EReal)
    (W2 : S128x1.Idx → EReal) (d : S1x1.Idx → EReal)
    (x0 : FVec Ideal S10000x128 .f32) (x1 : FVec Ideal S1x128 .f32) (x2 : FVec Ideal S128x128 .f32)
    (x3 : FVec Ideal S1x128 .f32) (x4 : FVec Ideal S128x1 .f32) (x5 : FVec Ideal S1x1 .f32)
    (o : Nat) (j : S10000x1.Idx) (i : S100000x1.Idx)
    (hi0 : (i 0).val = o * 10000 + (j 0).val) (hi1 : (i 1).val = (j 1).val)
    (h0 : ∀ (p : Fin 10000) (k : Fin 128) (r : Fin 100000), r.val = o * 10000 + p.val → x0 (ix2 p k) = A (ix2 r k))
    (h1 : ∀ (k : Fin 128), x1 (ix2 (0 : Fin 1) k) = b (ix2 (0 : Fin 1) k))
    (h2 : ∀ (k : Fin 128) (q : Fin 128), x2 (ix2 k q) = W1 (ix2 k q))
    (h3 : ∀ (k : Fin 128), x3 (ix2 (0 : Fin 1) k) = cc (ix2 (0 : Fin 1) k))
    (h4 : ∀ (k : Fin 128) (u : Fin 1), x4 (ix2 k u) = W2 (ix2 k u))
    (h5 : x5 (ix2 (0 : Fin 1) (0 : Fin 1)) = d (ix2 (0 : Fin 1) (0 : Fin 1))) :
    k2_pay1 (F := Ideal) x0 x1 x2 x3 x4 x5 j = head A b W1 cc W2 d i := by
  obtain ⟨p, u, rfl⟩ : ∃ (p : Fin 10000) (u : Fin 1), j = ix2 p u := ⟨j 0, j 1, eq_ix2 j⟩
  rw [Payloads.pay2_apply]
  unfold head act
  have e : (⟨(i 1).val, (i 1).isLt⟩ : Fin 1) = u := Fin.ext hi1
  rw [e, h5]
  refine congrArg (fun z => FloatOps.addf (F := Ideal) (φ := .f32) z (d (ix2 (0 : Fin 1) (0 : Fin 1)))) ?_
  refine Finset.sum_congr rfl fun k _ => ?_
  rw [h3 k, h4 k u]
  refine congrArg (fun z => FloatOps.maximumf (F := Ideal) (φ := .f32) (FloatOps.addf (F := Ideal) (φ := .f32) z (cc (ix2 (0 : Fin 1) k))) (FloatOps.ofBits (F := Ideal) .f32 0x00000000#32) * W2 (ix2 k u)) ?_
  refine Finset.sum_congr rfl fun jj _ => ?_
  rw [h0 p jj ⟨(i 0).val, (i 0).isLt⟩ hi0, h1 jj, h2 jj k]

/-- The printed index maps over the grid: the row-block windows move together, everything else stays. -/
theorem idx_facts : ∀ t : Fin cfg2.N, win2_0.index t (0 : Fin 2) = win2_6.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 9 :=
  (by decide +kernel : ∀ t : Fin grid2.N, _)

/-- Every row block is some point's. -/
theorem idx_onto : ∀ (q0 : Fin 10), ∃ t : Fin cfg2.N, win2_6.index t = ![q0.val, 0] :=
  (by decide +kernel : ∀ (q0 : Fin 10), ∃ t : Fin grid2.N, win2_6.index t = ![q0.val, 0])

/-- What point t writes back is block t of the whole head of the arrays as the region finds them. -/
theorem flushed_eq (c : Dev nD) (t : Fin cfg2.N) :
    (dat2 V c).flushed 6 t = ((cfg2.win 6).blk t).view.read (Elt Ideal)
      (head (V c main_v68) (V c main_v69) (V c main_arg6) (V c main_v70) (V c main_arg8) (V c main_v71)) := by
  show (cfg2.win 6).cut (grid2.coords t) ((dat2 V c).after 6 t) = _
  rw [after2_6]
  unfold out2_6
  rw [View.canon_unit_zero hz]
  simp only [View.ld_unit_zero (S := S10000x128) hz, View.ld_unit_zero (S := S1x128) hz, View.ld_unit_zero (S := S128x128) hz,
    View.ld_unit_zero (S := S128x1) hz, View.ld_unit_zero (S := S1x1) hz]
  obtain ⟨e0, e1, e2, e3, e4, e5, e6, e7, e8, e9, e10, e11, e12, e13⟩ := idx_facts t
  funext j
  show k2_pay1 (F := Ideal) (iblk2 V c 0 t) (iblk2 V c 1 t) (iblk2 V c 2 t) (iblk2 V c 3 t) (iblk2 V c 4 t) (iblk2 V c 5 t) j
    = head (V c main_v68) (V c main_v69) (V c main_arg6) (V c main_v70) (V c main_arg8) (V c main_v71) (((cfg2.win 6).blk t).view.emb j)
  refine block_eq (V c main_v68) (V c main_v69) (V c main_arg6) (V c main_v70) (V c main_arg8) (V c main_v71)
    (iblk2 V c 0 t) (iblk2 V c 1 t) (iblk2 V c 2 t) (iblk2 V c 3 t) (iblk2 V c 4 t) (iblk2 V c 5 t)
    (win2_6.index t (0 : Fin 2)) j _ ?_ ?_ ?_ ?_ ?_ ?_ ?_ ?_
  · show win2_6.index t (0 : Fin 2) * 10000 + 1 * (j 0).val = _
    omega
  · show win2_6.index t (1 : Fin 2) * 1 + 1 * (j 1).val = _
    omega
  · intro p k r hr
    show V c main_v68 (((cfg2.win 0).blk t).view.emb (ix2 p k)) = V c main_v68 (ix2 r k)
    refine congrArg (V c main_v68) (funext fun a => Fin.ext ?_)
    match a with
    | ⟨0, _⟩ => show win2_0.index t (0 : Fin 2) * 10000 + 1 * p.val = r.val; omega
    | ⟨1, _⟩ => show win2_0.index t (1 : Fin 2) * 128 + 1 * k.val = k.val; omega
  · intro k
    show V c main_v69 (((cfg2.win 1).blk t).view.emb (ix2 (0 : Fin 1) k)) = V c main_v69 (ix2 (0 : Fin 1) k)
    refine congrArg (V c main_v69) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · intro k q
    show V c main_arg6 (((cfg2.win 2).blk t).view.emb (ix2 k q)) = V c main_arg6 (ix2 k q)
    refine congrArg (V c main_arg6) (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  · intro k
    show V c main_v70 (((cfg2.win 3).blk t).view.emb (ix2 (0 : Fin 1) k)) = V c main_v70 (ix2 (0 : Fin 1) k)
    refine congrArg (V c main_v70) (funext fun a => Fin.ext ?_)
    match a with
    | ⟨0, _⟩ => show win2_3.index t (0 : Fin 2) * 1 + 1 * 0 = 0; omega
    | ⟨1, _⟩ => show win2_3.index t (1 : Fin 2) * 128 + 1 * k.val = k.val; omega
  · intro k u
    show V c main_arg8 (((cfg2.win 4).blk t).view.emb (ix2 k u)) = V c main_arg8 (ix2 k u)
    refine congrArg (V c main_arg8) (funext fun a => Fin.ext ?_)
    match a with
    | ⟨0, _⟩ => show win2_4.index t (0 : Fin 2) * 128 + 1 * k.val = k.val; omega
    | ⟨1, _⟩ => show win2_4.index t (1 : Fin 2) * 1 + 1 * u.val = u.val; omega
  · show V c main_v71 (((cfg2.win 5).blk t).view.emb (ix2 (0 : Fin 1) (0 : Fin 1))) = V c main_v71 (ix2 (0 : Fin 1) (0 : Fin 1))
    refine congrArg (V c main_v71) (funext fun a => Fin.ext ?_)
    match a with
    | ⟨0, _⟩ => show win2_5.index t (0 : Fin 2) * 1 + 1 * 0 = 0; omega
    | ⟨1, _⟩ => show win2_5.index t (1 : Fin 2) * 1 + 1 * 0 = 0; omega

/-- An index of the result array is in point t's block iff each coordinate is in the block's range on its axis. -/
theorem mem_blk (t : Fin cfg2.N) (i : S100000x1.Idx) :
    i ∈ ((cfg2.win 6).blk t).view.set ↔ ∀ a : Fin 2, win2_6.index t a * S10000x1.size a ≤ (i a).val ∧ (i a).val < win2_6.index t a * S10000x1.size a + S10000x1.size a := by
  show i ∈ ((View.whole main_v72).slice (win2_6.rect t)).set ↔ _
  rw [View.set_slice_whole, Rect.mem_set_unit]
  exact Iff.rfl

/-- The ten row blocks tile the result array: row r is in block r / 10000. -/
theorem cover (i : S100000x1.Idx) : ∃ t : Fin cfg2.N, (cfg2.win 6).flush t = true ∧ i ∈ ((cfg2.win 6).blk t).view.set := by
  have hi0 : (i 0).val < 100000 := (i 0).isLt
  have hi1 : (i 1).val < 1 := (i 1).isLt
  obtain ⟨t, ht⟩ := idx_onto ⟨(i 0).val / 10000, by omega⟩
  have q0 : win2_6.index t (0 : Fin 2) = (i 0).val / 10000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 1 ≤ (i 1).val ∧ (i 1).val < win2_6.index t (1 : Fin 2) * 1 + 1; omega

/-- After the region the result array is the whole head of the arrays as the region found them. -/
theorem final (c : Dev nD) : (dat2 V c).arrAt 6 cfg2.N
    = head (V c main_v68) (V c main_v69) (V c main_arg6) (V c main_v70) (V c main_arg8) (V c main_v71) :=
  (dat2 V c).arrAt_eq_of_cover 6 (head (V c main_v68) (V c main_v69) (V c main_arg6) (V c main_v70) (V c main_arg8) (V c main_v71))
    (fun t _ => flushed_eq V c t) cover

end Cert.KernelIdeal.Region2

end
-- ==== Proof.RefSide.lean ====
/-
  The reference, stage by stage, in the vocabulary the kernel's value is stated in.

  The reference computes  reshape(head-without-fusion):  every layer is  (aggregate (x · W)) + b  clamped at zero, the
  next layer multiplying that.  Reading its stages:
    * the feature matrix, the edge lists and the edge weights are the shared host functions (the same operations,
      by unfolding);
    * x · W at an entry is Σ_k x[r,k] · W[k,q]  (the host's dot_general is that sum over the extended reals);
    * (· + b) clamped at zero and multiplied by the next weights is the next dense layer applied to the aggregate,
      the bias vector [n] read as the row [1,n] the kernel is handed;
    * the aggregation is the one shared function `agg`, never opened.
  No law of arithmetic is used: the two programs perform the same operations in the same order, and differ only
  in where the bias and the clamp are written down.
-/
import proofs.«168326_j28561532518999_1_alg».proof.Proof.RefReadP
import proofs.«168326_j28561532518999_1_alg».proof.Proof.HostFns
import proofs.«168326_j28561532518999_1_alg».proof.Proof.Dense
import Idealize.ShloMosaic.Lib.Pipeline.Value
import Idealize.ShloMosaic.Lib.ValueIdx

noncomputable section

namespace Cert.RefSide

open Idealize.ShloMosaic Idealize.ShloMosaic.ValueIdx
open Cert.ReferenceIdeal.ReadP
open Cert.KernelIdeal.HostFns Cert.KernelIdeal.Dense

variable (x0 : (⟨Cert.ReferenceIdeal.S1x20063, .f32⟩ : BufTy).Contents (Elt Ideal)) (x1 : (⟨Cert.ReferenceIdeal.S2x1600000, .i32⟩ : BufTy).Contents (Elt Ideal)) (x2 : (⟨Cert.ReferenceIdeal.S7x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x1, .f32⟩ : BufTy).Contents (Elt Ideal)) (x9 : (⟨Cert.ReferenceIdeal.S1, .f32⟩ : BufTy).Contents (Elt Ideal))

/-! ## The shared host functions -/

theorem v9_eq : val_main_v9 (F := Ideal) x0 = combined x0 := rfl
theorem v13_eq : val_main_v13 (F := Ideal) x1 = src x1 := rfl
theorem v16_eq : val_main_v16 (F := Ideal) x1 = dst x1 := rfl
theorem v39_eq : val_main_v39 (F := Ideal) x1 = norm x1 := rfl

/-- The first aggregation is `agg` of the first product. -/
theorem v53_eq : val_main_v53 (F := Ideal) x0 x1 x2 = agg (src x1) (dst x1) (norm x1) (val_main_v40 (F := Ideal) x0 x2) := rfl

/-- The second aggregation is `agg` of the second product. -/
theorem v71_eq : val_main_v71 (F := Ideal) x0 x1 x2 x3 x4 = agg (src x1) (dst x1) (norm x1) (val_main_v58 (F := Ideal) x0 x1 x2 x3 x4) := rfl

/-! ## A bias vector read as a row -/

/-- The [128] bias vector as a [1,128] row, at (0, k), is the vector at k — spelt as the reference's two broadcasts index it. -/
theorem row_of_vec (b : (⟨Cert.ReferenceIdeal.S128, .f32⟩ : BufTy).Contents (Elt Ideal)) (h : Cert.ReferenceIdeal.S128.ShapeCasts Cert.ReferenceIdeal.S1x128) (r : Fin 100000) (k : Fin 128)
    (f : Cert.ReferenceIdeal.S1x128.Idx → Cert.ReferenceIdeal.S128.Idx) (g : Cert.ReferenceIdeal.S100000x128.Idx → Cert.ReferenceIdeal.S1x128.Idx)
    (hf : ∀ j, f j = fun a => match a with | ⟨0, _⟩ => ⟨(j 1).val, (j 1).isLt⟩)
    (hg : ∀ j, g j = fun a => match a with | ⟨0, _⟩ => ⟨0, Nat.one_pos⟩ | ⟨1, _⟩ => ⟨(j 1).val, (j 1).isLt⟩) :
    shapeCast Cert.ReferenceIdeal.S1x128 b h (ix2 (0 : Fin 1) k) = b (f (g (ix2 r k))) := by
  refine (shapeCast_addUnit_apply ![128] b h (ix2 (0 : Fin 1) k)).trans (congrArg b ?_)
  rw [hf, hg]
  funext a
  match a with
  | ⟨0, _⟩ => rfl

/-! ## The dense layers -/

/-- The first product. -/
theorem v40_eq : val_main_v40 (F := Ideal) x0 x2 = layer0 (val_main_v9 (F := Ideal) x0) x2 := by
  funext i
  rw [val_main_v40_apply]
  unfold layer0
  refine Finset.sum_congr rfl fun k _ => ?_
  have el : lidx_main_v40 i k = ix2 (⟨(i 0).val, (i 0).isLt⟩ : Fin 100000) k := funext fun a => match a with | ⟨0, _⟩ => rfl | ⟨1, _⟩ => rfl
  have er : ridx_main_v40 i k = ix2 k (⟨(i 1).val, (i 1).isLt⟩ : Fin 128) := funext fun a => match a with | ⟨0, _⟩ => rfl | ⟨1, _⟩ => rfl
  rw [el, er]

/-- The second product is the second dense layer of the first aggregate. -/
theorem v58_eq : val_main_v58 (F := Ideal) x0 x1 x2 x3 x4
    = layer1 (val_main_v53 (F := Ideal) x0 x1 x2) (shapeCast _ x3 Cert.KernelIdeal.Gen.shapeCasts_S128_S1x128) x4 := by
  funext i
  rw [val_main_v58_apply]
  unfold layer1 act
  refine Finset.sum_congr rfl fun k _ => ?_
  have el : lidx_main_v58 i k = ix2 (⟨(i 0).val, (i 0).isLt⟩ : Fin 100000) k := funext fun a => match a with | ⟨0, _⟩ => rfl | ⟨1, _⟩ => rfl
  have er : ridx_main_v58 i k = ix2 k (⟨(i 1).val, (i 1).isLt⟩ : Fin 128) := funext fun a => match a with | ⟨0, _⟩ => rfl | ⟨1, _⟩ => rfl
  rw [el, er, val_main_v57_apply, val_main_v56_apply, val_main_v55_apply, val_main_v54_apply, val_main_call1_v0_apply, val_main_call1_cst_apply,
    row_of_vec x3 Cert.KernelIdeal.Gen.shapeCasts_S128_S1x128 (⟨(i 0).val, (i 0).isLt⟩ : Fin 100000) k idx_main_v54 idx_main_v55 (fun _ => rfl) (fun _ => rfl)]

/-- The perceptron head of the second aggregate. -/
theorem v84_eq : val_main_v84 (F := Ideal) x0 x1 x2 x3 x4 x5 x6 x7 x8 x9
    = head (val_main_v71 (F := Ideal) x0 x1 x2 x3 x4) (shapeCast _ x5 Cert.KernelIdeal.Gen.shapeCasts_S128_S1x128) x6
        (shapeCast _ x7 Cert.KernelIdeal.Gen.shapeCasts_S128_S1x128) x8 (shapeCast _ x9 Cert.KernelIdeal.Gen.shapeCasts_S1_S1x1) := by
  funext i
  rw [val_main_v84_apply, val_main_v81_apply, val_main_v83_apply, val_main_v82_apply]
  unfold head act
  have e9 : shapeCast Cert.ReferenceIdeal.S1x1 x9 Cert.KernelIdeal.Gen.shapeCasts_S1_S1x1 (ix2 (0 : Fin 1) (0 : Fin 1)) = x9 (idx_main_v82 (idx_main_v83 i)) :=
    (shapeCast_addUnit_apply ![1] x9 Cert.KernelIdeal.Gen.shapeCasts_S1_S1x1 (ix2 (0 : Fin 1) (0 : Fin 1))).trans
      (congrArg x9 (funext fun a => match a with | ⟨0, _⟩ => rfl))
  rw [e9]
  refine congrArg (fun z => FloatOps.addf (F := Ideal) (φ := .f32) z (x9 (idx_main_v82 (idx_main_v83 i)))) ?_
  refine Finset.sum_congr rfl fun k _ => ?_
  have el : lidx_main_v81 i k = ix2 (⟨(i 0).val, (i 0).isLt⟩ : Fin 100000) k := funext fun a => match a with | ⟨0, _⟩ => rfl | ⟨1, _⟩ => rfl
  have er : ridx_main_v81 i k = ix2 k (⟨(i 1).val, (i 1).isLt⟩ : Fin 1) := funext fun a => match a with | ⟨0, _⟩ => rfl | ⟨1, _⟩ => rfl
  rw [el, er, val_main_v80_apply, val_main_v79_apply, val_main_v78_apply, val_main_v77_apply, val_main_call3_v0_apply, val_main_call3_cst_apply,
    row_of_vec x7 Cert.KernelIdeal.Gen.shapeCasts_S128_S1x128 (⟨(i 0).val, (i 0).isLt⟩ : Fin 100000) k idx_main_v77 idx_main_v78 (fun _ => rfl) (fun _ => rfl), val_main_v76_apply]
  refine congrArg (fun z => FloatOps.maximumf (F := Ideal) (φ := .f32) (FloatOps.addf (F := Ideal) (φ := .f32) z
      (x7 (idx_main_v77 (idx_main_v78 (ix2 (⟨(i 0).val, (i 0).isLt⟩ : Fin 100000) k))))) (FloatOps.ofBits (F := Ideal) .f32 0x00000000#32)
    * x8 (ix2 k (⟨(i 1).val, (i 1).isLt⟩ : Fin 1))) ?_
  refine Finset.sum_congr rfl fun j _ => ?_
  have el' : lidx_main_v76 (ix2 (⟨(i 0).val, (i 0).isLt⟩ : Fin 100000) k) j = ix2 (⟨(i 0).val, (i 0).isLt⟩ : Fin 100000) j := funext fun a => match a with | ⟨0, _⟩ => rfl | ⟨1, _⟩ => rfl
  have er' : ridx_main_v76 (ix2 (⟨(i 0).val, (i 0).isLt⟩ : Fin 100000) k) j = ix2 j k := funext fun a => match a with | ⟨0, _⟩ => rfl | ⟨1, _⟩ => rfl
  rw [el', er', val_main_v75_apply, val_main_v74_apply, val_main_v73_apply, val_main_v72_apply, val_main_call2_v0_apply, val_main_call2_cst_apply,
    row_of_vec x5 Cert.KernelIdeal.Gen.shapeCasts_S128_S1x128 (⟨(i 0).val, (i 0).isLt⟩ : Fin 100000) j idx_main_v72 idx_main_v73 (fun _ => rfl) (fun _ => rfl)]

/-- The result is the head's column laid out as a row. -/
theorem v85_eq : val_main_v85 (F := Ideal) x0 x1 x2 x3 x4 x5 x6 x7 x8 x9
    = shapeCast _ (val_main_v84 (F := Ideal) x0 x1 x2 x3 x4 x5 x6 x7 x8 x9) Cert.KernelIdeal.Gen.shapeCasts_S100000x1_S1x100000 := rfl

end Cert.RefSide

end
-- ==== Proof.Result.lean ====
/-
  The result of both programs as ONE function of the ten arguments.

    result = reshape [100000,1] → [1,100000] of
             head( agg( layer1( agg( layer0(combined flat_obs, W1) ), b1 as a row, W2 ) ), b2 as a row, fc1_w, fc1_b as a row, fc2_w, fc2_b as [1,1] )

  where agg is the normalised neighbourhood sum over the edge list (with self loops), carried as one function.
  The kernel reaches it through its three row-blocked regions (each region's array after the run is the whole dense layer
  of what the region found, and what it found is read back through the host operations between the regions); the
  reference reaches it through its own stages.
-/
import proofs.«168326_j28561532518999_1_alg».proof.Proof.KernelFold
import proofs.«168326_j28561532518999_1_alg».proof.Proof.Region0
import proofs.«168326_j28561532518999_1_alg».proof.Proof.Region1
import proofs.«168326_j28561532518999_1_alg».proof.Proof.Region2
import proofs.«168326_j28561532518999_1_alg».proof.Proof.RefSide

noncomputable section

namespace Cert.Result

open Idealize.ShloMosaic Idealize.ShloMosaic.TcCoe Idealize.SL.Sem
open Cert.KernelIdeal.HostFns Cert.KernelIdeal.Dense

/-- Both programs' result, as a function of the argument arrays. -/
def result (a0 : (⟨Cert.KernelIdeal.S1x20063, .f32⟩ : BufTy).Contents (Elt Ideal)) (a1 : (⟨Cert.KernelIdeal.S2x1600000, .i32⟩ : BufTy).Contents (Elt Ideal)) (a2 : (⟨Cert.KernelIdeal.S7x128, .f32⟩ : BufTy).Contents (Elt Ideal)) (a3 : (⟨Cert.KernelIdeal.S128, .f32⟩ : BufTy).Contents (Elt Ideal)) (a4 : (⟨Cert.KernelIdeal.S128x128, .f32⟩ : BufTy).Contents (Elt Ideal)) (a5 : (⟨Cert.KernelIdeal.S128, .f32⟩ : BufTy).Contents (Elt Ideal)) (a6 : (⟨Cert.KernelIdeal.S128x128, .f32⟩ : BufTy).Contents (Elt Ideal)) (a7 : (⟨Cert.KernelIdeal.S128, .f32⟩ : BufTy).Contents (Elt Ideal)) (a8 : (⟨Cert.KernelIdeal.S128x1, .f32⟩ : BufTy).Contents (Elt Ideal)) (a9 : (⟨Cert.KernelIdeal.S1, .f32⟩ : BufTy).Contents (Elt Ideal)) : (⟨Cert.KernelIdeal.S1x100000, .f32⟩ : BufTy).Contents (Elt Ideal) :=
  shapeCast _
    (head (agg (src a1) (dst a1) (norm a1)
        (layer1 (agg (src a1) (dst a1) (norm a1) (layer0 (combined a0) a2)) (shapeCast _ a3 Cert.KernelIdeal.Gen.shapeCasts_S128_S1x128) a4))
      (shapeCast _ a5 Cert.KernelIdeal.Gen.shapeCasts_S128_S1x128) a6 (shapeCast _ a7 Cert.KernelIdeal.Gen.shapeCasts_S128_S1x128) a8 (shapeCast _ a9 Cert.KernelIdeal.Gen.shapeCasts_S1_S1x1))
    Cert.KernelIdeal.Gen.shapeCasts_S100000x1_S1x100000

/-- The kernel's result buffer after the run, read back through the three regions and the host operations between them. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W9 m ρ c (Proc.devRef .tc Cert.KernelIdeal.main_v73) = result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [Cert.KernelIdeal.Fold.W9_v73, Cert.KernelIdeal.Region2.final (Cert.KernelIdeal.Gen.V7 m ρ) c, Cert.KernelIdeal.Fold.V7_v68, Cert.KernelIdeal.Fold.V7_v69, Cert.KernelIdeal.Fold.V7_arg6, Cert.KernelIdeal.Fold.V7_v70, Cert.KernelIdeal.Fold.V7_arg8, Cert.KernelIdeal.Fold.V7_v71,
    Cert.KernelIdeal.Region1.final (Cert.KernelIdeal.Gen.V5 m ρ) c, Cert.KernelIdeal.Fold.V5_v53, Cert.KernelIdeal.Fold.V5_v54, Cert.KernelIdeal.Fold.V5_arg4,
    Cert.KernelIdeal.Region0.final (Cert.KernelIdeal.Gen.V3 m ρ) c, Cert.KernelIdeal.Fold.V3_v9, Cert.KernelIdeal.Fold.V3_arg2]
  rfl

/-- The reference's last stage is the same function of its arguments. -/
theorem reference_result (x0 : (⟨Cert.ReferenceIdeal.S1x20063, .f32⟩ : BufTy).Contents (Elt Ideal)) (x1 : (⟨Cert.ReferenceIdeal.S2x1600000, .i32⟩ : BufTy).Contents (Elt Ideal)) (x2 : (⟨Cert.ReferenceIdeal.S7x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x1, .f32⟩ : BufTy).Contents (Elt Ideal)) (x9 : (⟨Cert.ReferenceIdeal.S1, .f32⟩ : BufTy).Contents (Elt Ideal)) :
    Cert.ReferenceIdeal.ReadP.val_main_v85 (F := Ideal) x0 x1 x2 x3 x4 x5 x6 x7 x8 x9 = result x0 x1 x2 x3 x4 x5 x6 x7 x8 x9 := by
  rw [Cert.RefSide.v85_eq, Cert.RefSide.v84_eq, Cert.RefSide.v71_eq, Cert.RefSide.v58_eq, Cert.RefSide.v53_eq, Cert.RefSide.v40_eq, Cert.RefSide.v9_eq]
  rfl

end Cert.Result

end
-- ==== Proof.lean ====
/-
  A two-layer graph convolution with a perceptron head, as three row-blocked Pallas kernels among host operations, against
  its plain jnp reference — equal over the extended reals.

  Both programs build the same [100000,7] feature matrix, the same edge lists with self loops and the same edge weights
  dinv[src]·dinv[dst] on the host, and both aggregate with the same gather / scale / scatter-add.  The reference writes
  each layer as  relu(aggregate(x · W) + b);  the kernel moves every "+ b" and clamp into the NEXT Pallas call:
      region 0:  x · W1                          region 1:  relu(agg1 + b1) · W2
      region 2:  relu(relu(agg2 + b2) · fc1_w + fc1_b) · fc2_w + fc2_b
  each over ten blocks of 10000 rows.  The operations and their order are the same on both sides, so no law of arithmetic
  is needed (and the finiteness of the inputs is never used): a product on the matrix unit into zeros and the host's
  dot_general are the same sum over the contracted axis, a row block of a dense layer is the block of the whole layer
  because row r of the result reads row r of the input only, and the aggregation is carried as one unopened function.
  Both results are the function Cert.Result.result of the ten arguments.

  The three frames are the generated ones (the reference's: its run with the result dropped); the ideal pass rewrote
  nothing, so the idealization claim is trivial.
-/
import proofs.«168326_j28561532518999_1_alg».proof.Defs
import proofs.«168326_j28561532518999_1_alg».proof.Proof.Gen.Kernel
import proofs.«168326_j28561532518999_1_alg».proof.Proof.Gen.Kernel.Skeleton
import proofs.«168326_j28561532518999_1_alg».proof.Proof.Gen.Kernel.Launch
import proofs.«168326_j28561532518999_1_alg».proof.Proof.Gen.Kernel.Points
import proofs.«168326_j28561532518999_1_alg».proof.Proof.Gen.Kernel.Frame
import proofs.«168326_j28561532518999_1_alg».proof.Proof.Gen.KernelIdeal
import proofs.«168326_j28561532518999_1_alg».proof.Proof.Gen.KernelIdeal.Skeleton
import proofs.«168326_j28561532518999_1_alg».proof.Proof.Gen.KernelIdeal.Launch
import proofs.«168326_j28561532518999_1_alg».proof.Proof.Gen.KernelIdeal.Points
import proofs.«168326_j28561532518999_1_alg».proof.Proof.Gen.KernelIdeal.Frame
import proofs.«168326_j28561532518999_1_alg».proof.Proof.Gen.ReferenceIdeal
import proofs.«168326_j28561532518999_1_alg».proof.Proof.Gen.Pre_finite_inputs
import proofs.«168326_j28561532518999_1_alg».proof.Proof.RefRunP
import proofs.«168326_j28561532518999_1_alg».proof.Proof.RefReadP
import proofs.«168326_j28561532518999_1_alg».proof.Proof.KernelRun
import proofs.«168326_j28561532518999_1_alg».proof.Proof.Result
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- From memories agreeing on the arguments both programs end with the result buffer at `Cert.Result.result` of the
    arguments: the kernel by its run read back through the regions, the reference by its run read stage by stage. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Result.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.Result.kernel_result m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v85_eq, Cert.Result.reference_result,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
